-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x64 : Shape := ⟨3, ![4096, 64, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S128x64 : Shape := ⟨2, ![128, 64]⟩
abbrev S64 : Shape := ⟨1, ![64]⟩
abbrev S64x1 : Shape := ⟨2, ![64, 1]⟩
abbrev S1 : Shape := ⟨1, ![1]⟩
abbrev S137x256 : Shape := ⟨2, ![137, 256]⟩
abbrev S128x1 : Shape := ⟨2, ![128, 1]⟩
abbrev S_ : Shape := ⟨0, ![]⟩

class Facts : Prop where
  bcast_S_S4096x64x64 : S_.BroadcastsInDim S4096x64x64 (![] : Fin 0 → Fin S4096x64x64.rank)
  reducesTo_S4096x64x64_S_d0_1_2 : S4096x64x64.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S137x256 : S_.BroadcastsInDim S137x256 (![] : Fin 0 → Fin S137x256.rank)
  reducesTo_S137x256_S_d0_1 : S137x256.ReducesTo [0, 1] S_
  bcast_S_S128x1 : S_.BroadcastsInDim S128x1 (![] : Fin 0 → Fin S128x1.rank)
  reducesTo_S128x1_S_d0_1 : S128x1.ReducesTo [0, 1] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S128 .f32) (main_arg19 : FVec F S128x1 .f32) (main_arg20 : FVec F S1 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x1 .f32 := Host.absf main_arg19
  let main_cst_36 : FVec F S_ .f32 := constant S_ .f32 0x7F800000#32
  let main_v95 : FVec F S128x1 .f32 := broadcastInDim S128x1 ![] bcast_S_S128x1 main_cst_36
  let main_v96 : IVec S128x1 1 := cmpf .olt main_v94 main_v95
  let main_c_37 : IVec S_ 1 := constantI S_ 1 1#1
  let main_v97 : IVec S_ 1 := (fun x v => Host.reduce IntOp.andi x v reducesTo_S128x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S1 .f32) (main_arg15 : FVec F S137x256 .f32) (main_arg16 : FVec F S256 .f32) (main_arg17 : FVec F S256x128 .f32) (main_arg18 : FVec F S128 .f32) (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S137x256 .f32 := Host.absf main_arg15
  let main_cst_28 : FVec F S_ .f32 := constant S_ .f32 0x7F800000#32
  let main_v75 : FVec F S137x256 .f32 := broadcastInDim S137x256 ![] bcast_S_S137x256 main_cst_28
  let main_v76 : IVec S137x256 1 := cmpf .olt main_v74 main_v75
  let main_c_29 : IVec S_ 1 := constantI S_ 1 1#1
  let main_v77 : IVec S_ 1 := (fun x v => Host.reduce IntOp.andi x v reducesTo_S137x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S128x64 .f32) (main_arg12 : FVec F S64 .f32) (main_arg13 : FVec F S64x1 .f32) (main_arg14 : FVec F S1 .f32) (main_arg15 : FVec F S137x256 .f32) (main_arg16 : FVec F S256 .f32) (main_arg17 : FVec F S256x128 .f32) (main_arg18 : FVec F S128 .f32) (main_arg19 : FVec F S128x1 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg13
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S256x128 .f32) (main_arg8 : FVec F S128 .f32) (main_arg9 : FVec F S256x128 .f32) (main_arg10 : FVec F S128 .f32) (main_arg11 : FVec F S128x64 .f32) (main_arg12 : FVec F S64 .f32) (main_arg13 : FVec F S64x1 .f32) (main_arg14 : FVec F S1 .f32) (main_arg15 : FVec F S137x256 .f32) (main_arg16 : FVec F S256 .f32) (main_arg17 : FVec F S256x128 .f32) (main_arg18 : FVec F S128 .f32) (main_arg19 : FVec F S128x1 .f32) (main_arg20 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S128 .f32) (main_arg5 : FVec F S128x256 .f32) (main_arg6 : FVec F S256 .f32) (main_arg7 : FVec F S256x128 .f32) (main_arg8 : FVec F S128 .f32) (main_arg9 : FVec F S256x128 .f32) (main_arg10 : FVec F S128 .f32) (main_arg11 : FVec F S128x64 .f32) (main_arg12 : FVec F S64 .f32) (main_arg13 : FVec F S64x1 .f32) (main_arg14 : FVec F S1 .f32) (main_arg15 : FVec F S137x256 .f32) (main_arg16 : FVec F S256 .f32) (main_arg17 : FVec F S256x128 .f32) (main_arg18 : FVec F S128 .f32) (main_arg19 : FVec F S128x1 .f32) (main_arg20 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x64x64 .f32) (main_arg1 : FVec F S64x256 .f32) (main_arg2 : FVec F S256 .f32) (main_arg3 : FVec F S256x128 .f32) (main_arg4 : FVec F S128 .f32) (main_arg5 : FVec F S128x256 .f32) (main_arg6 : FVec F S256 .f32) (main_arg7 : FVec F S256x128 .f32) (main_arg8 : FVec F S128 .f32) (main_arg9 : FVec F S256x128 .f32) (main_arg10 : FVec F S128 .f32) (main_arg11 : FVec F S128x64 .f32) (main_arg12 : FVec F S64 .f32) (main_arg13 : FVec F S64x1 .f32) (main_arg14 : FVec F S1 .f32) (main_arg15 : FVec F S137x256 .f32) (main_arg16 : FVec F S256 .f32) (main_arg17 : FVec F S256x128 .f32) (main_arg18 : FVec F S128 .f32) (main_arg19 : FVec F S128x1 .f32) (main_arg20 : FVec F S1 .f32) : IVec S_ 1 :=
  let main_v0 : FVec F S4096x64x64 .f32 := Host.absf main_arg0
  let main_cst : FVec F S_ .f32 := constant S_ .f32 0x7F800000#32
  let main_v1 : FVec F S4096x64x64 .f32 := broadcastInDim S4096x64x64 ![] bcast_S_S4096x64x64 main_cst
  let main_v2 : IVec S4096x64x64 1 := cmpf .olt main_v0 main_v1
  let main_c : IVec S_ 1 := constantI S_ 1 1#1
  let main_v3 : IVec S_ 1 := (fun x v => Host.reduce IntOp.andi x v reducesTo_S4096x64x64_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x64x64 : Shape := ⟨3, ![4096, 64, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S128x64 : Shape := ⟨2, ![128, 64]⟩
abbrev S64 : Shape := ⟨1, ![64]⟩
abbrev S64x1 : Shape := ⟨2, ![64, 1]⟩
abbrev S1 : Shape := ⟨1, ![1]⟩
abbrev S137x256 : Shape := ⟨2, ![137, 256]⟩
abbrev S128x1 : Shape := ⟨2, ![128, 1]⟩
abbrev S128x128 : Shape := ⟨2, ![128, 128]⟩
abbrev S1x64 : Shape := ⟨2, ![1, 64]⟩
abbrev S9x256 : Shape := ⟨2, ![9, 256]⟩
abbrev S1x256 : Shape := ⟨2, ![1, 256]⟩
abbrev S1x128 : Shape := ⟨2, ![1, 128]⟩
abbrev S1x1 : Shape := ⟨2, ![1, 1]⟩
abbrev S4096x1 : Shape := ⟨2, ![4096, 1]⟩
abbrev S128x64x64 : Shape := ⟨3, ![128, 64, 64]⟩
abbrev S128x1x9 : Shape := ⟨3, ![128, 1, 9]⟩
abbrev S128x9 : Shape := ⟨2, ![128, 9]⟩
abbrev S128x64x1 : Shape := ⟨3, ![128, 64, 1]⟩
abbrev S8192x64 : Shape := ⟨2, ![8192, 64]⟩
abbrev S8192x256 : Shape := ⟨2, ![8192, 256]⟩
abbrev S8192x128 : Shape := ⟨2, ![8192, 128]⟩
abbrev S8192x1 : Shape := ⟨2, ![8192, 1]⟩
abbrev S128x64x128 : Shape := ⟨3, ![128, 64, 128]⟩
abbrev S128x1x128 : Shape := ⟨3, ![128, 1, 128]⟩
abbrev S1x1x128 : Shape := ⟨3, ![1, 1, 128]⟩
abbrev S8192 : Shape := ⟨1, ![8192]⟩

abbrev nBuf : Space → Nat
  | .hbm => 41
  | .vmem => 26
  | .smem => 0
  | _ => 0

abbrev bufTy : (tb : Table) → Fin (tcTables nBuf tb) → BufTy
  | .hbm, ⟨0, _⟩ => ⟨S4096x64x64, .f32⟩
  | .hbm, ⟨1, _⟩ => ⟨S64x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S137x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S128x1, .f32⟩
  | .hbm, ⟨20, _⟩ => ⟨S1, .f32⟩
  | .hbm, ⟨21, _⟩ => ⟨S64x256, .bf16⟩
  | .hbm, ⟨22, _⟩ => ⟨S256x128, .bf16⟩
  | .hbm, ⟨23, _⟩ => ⟨S128x256, .bf16⟩
  | .hbm, ⟨24, _⟩ => ⟨S256x128, .bf16⟩
  | .hbm, ⟨25, _⟩ => ⟨S128x128, .f32⟩
  | .hbm, ⟨26, _⟩ => ⟨S128x128, .f32⟩
  | .hbm, ⟨27, _⟩ => ⟨S1x64, .f32⟩
  | .hbm, ⟨28, _⟩ => ⟨S9x256, .f32⟩
  | .hbm, ⟨29, _⟩ => ⟨S128x256, .f32⟩
  | .hbm, ⟨30, _⟩ => ⟨S1x256, .f32⟩
  | .hbm, ⟨31, _⟩ => ⟨S1x128, .f32⟩
  | .hbm, ⟨32, _⟩ => ⟨S1x256, .f32⟩
  | .hbm, ⟨33, _⟩ => ⟨S1x128, .f32⟩
  | .hbm, ⟨34, _⟩ => ⟨S1x128, .f32⟩
  | .hbm, ⟨35, _⟩ => ⟨S1x64, .f32⟩
  | .hbm, ⟨36, _⟩ => ⟨S1x1, .f32⟩
  | .hbm, ⟨37, _⟩ => ⟨S1x256, .f32⟩
  | .hbm, ⟨38, _⟩ => ⟨S1x128, .f32⟩
  | .hbm, ⟨39, _⟩ => ⟨S1x1, .f32⟩
  | .hbm, ⟨40, _⟩ => ⟨S4096x1, .f32⟩
  | .local _ .vmem, ⟨0, _⟩ => ⟨S128x64x64, .f32⟩
  | .local _ .vmem, ⟨1, _⟩ => ⟨S128x64x64, .f32⟩
  | .local _ .vmem, ⟨2, _⟩ => ⟨S64x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S128x256, .bf16⟩
  | .local _ .vmem, ⟨7, _⟩ => ⟨S1x256, .f32⟩
  | .local _ .vmem, ⟨8, _⟩ => ⟨S256x128, .bf16⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x64, .f32⟩
  | .local _ .vmem, ⟨14, _⟩ => ⟨S1x64, .f32⟩
  | .local _ .vmem, ⟨15, _⟩ => ⟨S1x64, .f32⟩
  | .local _ .vmem, ⟨16, _⟩ => ⟨S1x1, .f32⟩
  | .local _ .vmem, ⟨17, _⟩ => ⟨S9x256, .f32⟩
  | .local _ .vmem, ⟨18, _⟩ => ⟨S128x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S128x1, .f32⟩
  | .local _ .vmem, ⟨25, _⟩ => ⟨S128x1, .f32⟩
  | _, _ => ⟨S4096x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S9x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S128x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  bitsLt_bf16_f32 : FTy.bits .bf16 < FTy.bits .f32
  slices_S256x128_S128x128_0_0 : S256x128.Slices ![0, 0] S128x128
  slices_S256x128_S128x128_128_0 : S256x128.Slices ![128, 0] S128x128
  transposes_S64x1_S1x64_1_0 : S64x1.Transposes [1, 0] S1x64
  slices_S137x256_S9x256_0_0 : S137x256.Slices ![0, 0] S9x256
  slices_S137x256_S128x256_9_0 : S137x256.Slices ![9, 0] S128x256
  shapeCasts_S256_S1x256 : S256.ShapeCasts S1x256
  shapeCasts_S128_S1x128 : S128.ShapeCasts S1x128
  shapeCasts_S64_S1x64 : S64.ShapeCasts S1x64
  shapeCasts_S1_S1x1 : S1.ShapeCasts S1x1
  inb_S128x64x64_S128x64x64_0_0_0 : ∀ a, (![0, 0, 0] : Fin 3 → Nat) a + S128x64x64.size a ≤ S128x64x64.size a
  h_S128x64x64 : 0 < S128x64x64.numel
  slices_S128x64x64_o0_0_0_S128x1x9 : S128x64x64.Slices ![0, 0, 0] S128x1x9
  shapeCasts_S128x1x9_S128x9 : S128x1x9.ShapeCasts S128x9
  slices_S128x64x64_o0_0_61_S128x64x1 : S128x64x64.Slices ![0, 0, 61] S128x64x1
  shapeCasts_S128x64x1_S128x64 : S128x64x1.ShapeCasts S128x64
  natLt_1_32 : 1 < 32
  shapeCasts_S128x64x64_S8192x64 : S128x64x64.ShapeCasts S8192x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x64_S8192x1 : S128x64.ShapeCasts S8192x1
  broadcasts_S8192x1_S8192x128 : S8192x1.Broadcasts S8192x128
  shapeCasts_S8192x128_S128x64x128 : S8192x128.ShapeCasts S128x64x128
  reduces_S128x64x128_S128x128 : S128x64x128.Reduces [1] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  broadcasts_S128x1x128_S128x64x128 : S128x1x128.Broadcasts S128x64x128
  shapeCasts_S1x128_S1x1x128 : S1x128.ShapeCasts S1x1x128
  broadcasts_S1x1x128_S128x64x128 : S1x1x128.Broadcasts S128x64x128
  shapeCasts_S128x64x128_S8192x128 : S128x64x128.ShapeCasts S8192x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S128x64 : S8192x1.ShapeCasts S128x64
  reduces_S128x64_S128 : S128x64.Reduces [1] S128
  shapeCasts_S128_S128x1 : S128.ShapeCasts S128x1
  broadcasts_S128x1_S128x64 : S128x1.Broadcasts S128x64
  shapeCasts_S128x64_S128x64x1 : S128x64.ShapeCasts S128x64x1
  broadcasts_S128x64x1_S128x64x128 : S128x64x1.Broadcasts S128x64x128
  inb_S9x256_S9x256_0_0 : ∀ a, (![0, 0] : Fin 2 → Nat) a + S9x256.size a ≤ S9x256.size a
  h_S9x256 : 0 < S9x256.numel
  shapeCasts_S9x256_S9x256 : S9x256.ShapeCasts S9x256
  broadcasts_S1x256_S128x256 : S1x256.Broadcasts S128x256
  broadcasts_S1x128_S128x128 : S1x128.Broadcasts S128x128
  inb_S128x1_S128x1_0_0 : ∀ a, (![0, 0] : Fin 2 → Nat) a + S128x1.size a ≤ S128x1.size a
  h_S128x1 : 0 < S128x1.numel
  broadcasts_S1x1_S128x1 : S1x1.Broadcasts S128x1
  dot_S8192x64_S64x256_S8192x256_1_0_0_1_n_n_wf : DotDims.WF S8192x64 S64x256 S8192x256 [1] [0] [0] [1] [] []
  dot_S8192x256_S256x128_S8192x128_1_0_0_1_n_n_wf : DotDims.WF S8192x256 S256x128 S8192x128 [1] [0] [0] [1] [] []
  dot_S8192x128_S128x256_S8192x256_1_0_0_1_n_n_wf : DotDims.WF S8192x128 S128x256 S8192x256 [1] [0] [0] [1] [] []
  dot_S128x128_S128x128_S128x128_1_0_0_1_n_n_wf : DotDims.WF S128x128 S128x128 S128x128 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  dot_S128x9_S9x256_S128x256_1_0_0_1_n_n_wf : DotDims.WF S128x9 S9x256 S128x256 [1] [0] [0] [1] [] []
  dot_S128x128_S128x256_S128x256_1_0_0_1_n_n_wf : DotDims.WF S128x128 S128x256 S128x256 [1] [0] [0] [1] [] []
  dot_S128x256_S256x128_S128x128_1_0_0_1_n_n_wf : DotDims.WF S128x256 S256x128 S128x128 [1] [0] [0] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S4096x64x64.size a
  hwx0_0 : ∀ i : grid0.Coords, EltTy.bits .f32 = 32 ∨ (Rect.block (s := S4096x64x64) S128x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S9x256.size a ≤ S9x256.size a
  hwx0_16 : ∀ i : grid0.Coords, EltTy.bits .f32 = 32 ∨ (Rect.block (s := S9x256) S9x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .f32 = 32 ∨ (Rect.block (s := S128x256) S128x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .f32 = 32 ∨ (Rect.block (s := S256x128) S256x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x1.size a ≤ S128x1.size a
  hwx0_21 : ∀ i : grid0.Coords, EltTy.bits .f32 = 32 ∨ (Rect.block (s := S128x1) S128x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S128x1.size a ≤ S4096x1.size a
  hwx0_23 : ∀ i : grid0.Coords, EltTy.bits .f32 = 32 ∨ (Rect.block (s := S4096x1) S128x1.size (cc0_transform_23 i) (hinb0_23 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S128x9_S9x256_S128x256_1_0_0_1_n_n : DotDims S128x9 S9x256 S128x256 where
  lhsContracting := [1]
  rhsContracting := [0]
  lhsNonContracting := [0]
  rhsNonContracting := [1]
  lhsBatch := []
  rhsBatch := []
  wf := dot_S128x9_S9x256_S128x256_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S9x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg17) S256x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v17) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg19) S128x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v18) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v19) S128x1.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S4096x64x64 : Shape := ⟨3, ![4096, 64, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S128x64 : Shape := ⟨2, ![128, 64]⟩
abbrev S64 : Shape := ⟨1, ![64]⟩
abbrev S64x1 : Shape := ⟨2, ![64, 1]⟩
abbrev S1 : Shape := ⟨1, ![1]⟩
abbrev S137x256 : Shape := ⟨2, ![137, 256]⟩
abbrev S128x1 : Shape := ⟨2, ![128, 1]⟩
abbrev S4096x1x9 : Shape := ⟨3, ![4096, 1, 9]⟩
abbrev S4096x9 : Shape := ⟨2, ![4096, 9]⟩
abbrev S4096x64x1 : Shape := ⟨3, ![4096, 64, 1]⟩
abbrev S4096x64 : Shape := ⟨2, ![4096, 64]⟩
abbrev S_ : Shape := ⟨0, ![]⟩
abbrev S262144x64 : Shape := ⟨2, ![262144, 64]⟩
abbrev S262144x256 : Shape := ⟨2, ![262144, 256]⟩
abbrev S1x256 : Shape := ⟨2, ![1, 256]⟩
abbrev S262144x128 : Shape := ⟨2, ![262144, 128]⟩
abbrev S1x128 : Shape := ⟨2, ![1, 128]⟩
abbrev S262144x1 : Shape := ⟨2, ![262144, 1]⟩
abbrev S4096x64x128 : Shape := ⟨3, ![4096, 64, 128]⟩
abbrev S4096x128 : Shape := ⟨2, ![4096, 128]⟩
abbrev S4096x1x128 : Shape := ⟨3, ![4096, 1, 128]⟩
abbrev S1x64 : Shape := ⟨2, ![1, 64]⟩
abbrev S1x1 : Shape := ⟨2, ![1, 1]⟩
abbrev S4096 : Shape := ⟨1, ![4096]⟩
abbrev S4096x1 : Shape := ⟨2, ![4096, 1]⟩
abbrev S4096x137 : Shape := ⟨2, ![4096, 137]⟩
abbrev S4096x256 : Shape := ⟨2, ![4096, 256]⟩

abbrev nBuf : Space → Nat
  | .hbm => 125
  | .vmem => 0
  | .smem => 0
  | _ => 0

abbrev bufTy : (tb : Table) → Fin (tcTables nBuf tb) → BufTy
  | .hbm, ⟨0, _⟩ => ⟨S4096x64x64, .f32⟩
  | .hbm, ⟨1, _⟩ => ⟨S64x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S137x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S128x1, .f32⟩
  | .hbm, ⟨20, _⟩ => ⟨S1, .f32⟩
  | .hbm, ⟨21, _⟩ => ⟨S4096x1x9, .f32⟩
  | .hbm, ⟨22, _⟩ => ⟨S4096x9, .f32⟩
  | .hbm, ⟨23, _⟩ => ⟨S4096x64x1, .f32⟩
  | .hbm, ⟨24, _⟩ => ⟨S4096x64, .f32⟩
  | .hbm, ⟨25, _⟩ => ⟨S_, .f32⟩
  | .hbm, ⟨26, _⟩ => ⟨S4096x64, .f32⟩
  | .hbm, ⟨27, _⟩ => ⟨S4096x64, .i1⟩
  | .hbm, ⟨28, _⟩ => ⟨S262144x64, .f32⟩
  | .hbm, ⟨29, _⟩ => ⟨S262144x256, .f32⟩
  | .hbm, ⟨30, _⟩ => ⟨S1x256, .f32⟩
  | .hbm, ⟨31, _⟩ => ⟨S262144x256, .f32⟩
  | .hbm, ⟨32, _⟩ => ⟨S262144x256, .f32⟩
  | .hbm, ⟨33, _⟩ => ⟨S_, .f32⟩
  | .hbm, ⟨34, _⟩ => ⟨S262144x256, .f32⟩
  | .hbm, ⟨35, _⟩ => ⟨S262144x256, .f32⟩
  | .hbm, ⟨36, _⟩ => ⟨S262144x128, .f32⟩
  | .hbm, ⟨37, _⟩ => ⟨S1x128, .f32⟩
  | .hbm, ⟨38, _⟩ => ⟨S262144x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S262144x128, .f32⟩
  | .hbm, ⟨43, _⟩ => ⟨S262144x256, .f32⟩
  | .hbm, ⟨44, _⟩ => ⟨S1x256, .f32⟩
  | .hbm, ⟨45, _⟩ => ⟨S262144x256, .f32⟩
  | .hbm, ⟨46, _⟩ => ⟨S262144x256, .f32⟩
  | .hbm, ⟨47, _⟩ => ⟨S_, .f32⟩
  | .hbm, ⟨48, _⟩ => ⟨S262144x256, .f32⟩
  | .hbm, ⟨49, _⟩ => ⟨S262144x256, .f32⟩
  | .hbm, ⟨50, _⟩ => ⟨S262144x128, .f32⟩
  | .hbm, ⟨51, _⟩ => ⟨S1x128, .f32⟩
  | .hbm, ⟨52, _⟩ => ⟨S262144x128, .f32⟩
  | .hbm, ⟨53, _⟩ => ⟨S262144x128, .f32⟩
  | .hbm, ⟨54, _⟩ => ⟨S262144x1, .i1⟩
  | .hbm, ⟨55, _⟩ => ⟨S262144x1, .f32⟩
  | .hbm, ⟨56, _⟩ => ⟨S262144x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S4096x64x128, .f32⟩
  | .hbm, ⟨61, _⟩ => ⟨S_, .f32⟩
  | .hbm, ⟨62, _⟩ => ⟨S4096x128, .f32⟩
  | .hbm, ⟨63, _⟩ => ⟨S4096x1x128, .f32⟩
  | .hbm, ⟨64, _⟩ => ⟨S_, .f32⟩
  | .hbm, ⟨65, _⟩ => ⟨S4096x1x128, .f32⟩
  | .hbm, ⟨66, _⟩ => ⟨S4096x1x128, .f32⟩
  | .hbm, ⟨67, _⟩ => ⟨S4096x64x128, .f32⟩
  | .hbm, ⟨68, _⟩ => ⟨S262144x128, .f32⟩
  | .hbm, ⟨69, _⟩ => ⟨S262144x256, .f32⟩
  | .hbm, ⟨70, _⟩ => ⟨S262144x128, .f32⟩
  | .hbm, ⟨71, _⟩ => ⟨S1x128, .f32⟩
  | .hbm, ⟨72, _⟩ => ⟨S262144x128, .f32⟩
  | .hbm, ⟨73, _⟩ => ⟨S262144x128, .f32⟩
  | .hbm, ⟨74, _⟩ => ⟨S_, .f32⟩
  | .hbm, ⟨75, _⟩ => ⟨S262144x128, .f32⟩
  | .hbm, ⟨76, _⟩ => ⟨S262144x128, .f32⟩
  | .hbm, ⟨77, _⟩ => ⟨S262144x64, .f32⟩
  | .hbm, ⟨78, _⟩ => ⟨S1x64, .f32⟩
  | .hbm, ⟨79, _⟩ => ⟨S262144x64, .f32⟩
  | .hbm, ⟨80, _⟩ => ⟨S262144x64, .f32⟩
  | .hbm, ⟨81, _⟩ => ⟨S_, .f32⟩
  | .hbm, ⟨82, _⟩ => ⟨S262144x64, .f32⟩
  | .hbm, ⟨83, _⟩ => ⟨S262144x64, .f32⟩
  | .hbm, ⟨84, _⟩ => ⟨S262144x1, .f32⟩
  | .hbm, ⟨85, _⟩ => ⟨S1x1, .f32⟩
  | .hbm, ⟨86, _⟩ => ⟨S262144x1, .f32⟩
  | .hbm, ⟨87, _⟩ => ⟨S262144x1, .f32⟩
  | .hbm, ⟨88, _⟩ => ⟨S4096x64, .f32⟩
  | .hbm, ⟨89, _⟩ => ⟨S4096x64, .f32⟩
  | .hbm, ⟨90, _⟩ => ⟨S_, .f32⟩
  | .hbm, ⟨91, _⟩ => ⟨S4096x64, .f32⟩
  | .hbm, ⟨92, _⟩ => ⟨S4096x64, .i1⟩
  | .hbm, ⟨93, _⟩ => ⟨S4096x64, .f32⟩
  | .hbm, ⟨94, _⟩ => ⟨S4096x64, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S4096x64, .f32⟩
  | .hbm, ⟨99, _⟩ => ⟨S4096x64, .f32⟩
  | .hbm, ⟨100, _⟩ => ⟨S4096x64x128, .f32⟩
  | .hbm, ⟨101, _⟩ => ⟨S4096x64x1, .f32⟩
  | .hbm, ⟨102, _⟩ => ⟨S4096x64x128, .f32⟩
  | .hbm, ⟨103, _⟩ => ⟨S4096x64x128, .f32⟩
  | .hbm, ⟨104, _⟩ => ⟨S_, .f32⟩
  | .hbm, ⟨105, _⟩ => ⟨S4096x128, .f32⟩
  | .hbm, ⟨106, _⟩ => ⟨S4096x137, .f32⟩
  | .hbm, ⟨107, _⟩ => ⟨S4096x256, .f32⟩
  | .hbm, ⟨108, _⟩ => ⟨S1x256, .f32⟩
  | .hbm, ⟨109, _⟩ => ⟨S4096x256, .f32⟩
  | .hbm, ⟨110, _⟩ => ⟨S4096x256, .f32⟩
  | .hbm, ⟨111, _⟩ => ⟨S_, .f32⟩
  | .hbm, ⟨112, _⟩ => ⟨S4096x256, .f32⟩
  | .hbm, ⟨113, _⟩ => ⟨S4096x256, .f32⟩
  | .hbm, ⟨114, _⟩ => ⟨S4096x128, .f32⟩
  | .hbm, ⟨115, _⟩ => ⟨S1x128, .f32⟩
  | .hbm, ⟨116, _⟩ => ⟨S4096x128, .f32⟩
  | .hbm, ⟨117, _⟩ => ⟨S4096x128, .f32⟩
  | .hbm, ⟨118, _⟩ => ⟨S_, .f32⟩
  | .hbm, ⟨119, _⟩ => ⟨S4096x128, .f32⟩
  | .hbm, ⟨120, _⟩ => ⟨S4096x128, .f32⟩
  | .hbm, ⟨121, _⟩ => ⟨S4096x1, .f32⟩
  | .hbm, ⟨122, _⟩ => ⟨S1x1, .f32⟩
  | .hbm, ⟨123, _⟩ => ⟨S4096x1, .f32⟩
  | .hbm, ⟨124, _⟩ => ⟨S4096x1, .f32⟩
  | _, _ => ⟨S4096x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call0_cst : Ref sig .tc := ⟨.hbm, 33, rfl⟩
abbrev main_call0_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call1_cst : Ref sig .tc := ⟨.hbm, 40, rfl⟩
abbrev main_call1_v0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call2_cst : Ref sig .tc := ⟨.hbm, 47, rfl⟩
abbrev main_call2_v0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_0 : Ref sig .tc := ⟨.hbm, 61, rfl⟩
abbrev main_v33 : Ref sig .tc := ⟨.hbm, 62, rfl⟩
abbrev main_v34 : Ref sig .tc := ⟨.hbm, 63, rfl⟩
abbrev main_cst_1 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call3_cst : Ref sig .tc := ⟨.hbm, 74, rfl⟩
abbrev main_call3_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call4_cst : Ref sig .tc := ⟨.hbm, 81, rfl⟩
abbrev main_call4_v0 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_2 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_3 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_4 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call5_cst : Ref sig .tc := ⟨.hbm, 111, rfl⟩
abbrev main_call5_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call6_cst : Ref sig .tc := ⟨.hbm, 118, rfl⟩
abbrev main_call6_v0 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]

class Facts₀ : Prop where
  slices_S4096x64x64_S4096x1x9_0_0_0 : S4096x64x64.Slices ![0, 0, 0] S4096x1x9
  shapeCasts_S4096x1x9_S4096x9 : S4096x1x9.ShapeCasts S4096x9
  slices_S4096x64x64_S4096x64x1_0_0_61 : S4096x64x64.Slices ![0, 0, 61] S4096x64x1
  shapeCasts_S4096x64x1_S4096x64 : S4096x64x1.ShapeCasts S4096x64
  bcast_S_S4096x64 : S_.BroadcastsInDim S4096x64 (![] : Fin 0 → Fin S4096x64.rank)
  shapeCasts_S4096x64x64_S262144x64 : S4096x64x64.ShapeCasts S262144x64
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  shapeCasts_S4096x64_S262144x1 : S4096x64.ShapeCasts S262144x1
  bcast_S262144x1_S262144x128_0_1 : S262144x1.BroadcastsInDim S262144x128 (![0, 1] : Fin 2 → Fin S262144x128.rank)
  shapeCasts_S262144x128_S4096x64x128 : S262144x128.ShapeCasts S4096x64x128
  reducesTo_S4096x64x128_S4096x128_d1 : S4096x64x128.ReducesTo [1] S4096x128
  h_S_ : 0 < S_.numel
  bcast_S4096x128_S4096x1x128_0_2 : S4096x128.BroadcastsInDim S4096x1x128 (![0, 2] : Fin 2 → Fin S4096x1x128.rank)
  bcast_S_S4096x1x128 : S_.BroadcastsInDim S4096x1x128 (![] : Fin 0 → Fin S4096x1x128.rank)
  bcast_S4096x1x128_S4096x64x128_0_1_2 : S4096x1x128.BroadcastsInDim S4096x64x128 (![0, 1, 2] : Fin 3 → Fin S4096x64x128.rank)
  shapeCasts_S4096x64x128_S262144x128 : S4096x64x128.ShapeCasts S262144x128
  concatenates_S262144x128_S262144x128_S262144x256_d1 : Shape.Concatenates [S262144x128, S262144x128] S262144x256 1
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S4096x64 : S262144x1.ShapeCasts S4096x64
  reducesTo_S4096x64_S4096_d1 : S4096x64.ReducesTo [1] S4096
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S4096x64_S4096x64x1_0_1 : S4096x64.BroadcastsInDim S4096x64x1 (![0, 1] : Fin 2 → Fin S4096x64x1.rank)
  bcast_S4096x64x1_S4096x64x128_0_1_2 : S4096x64x1.BroadcastsInDim S4096x64x128 (![0, 1, 2] : Fin 3 → Fin S4096x64x128.rank)
  concatenates_S4096x9_S4096x128_S4096x137_d1 : Shape.Concatenates [S4096x9, S4096x128] S4096x137 1
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S1x1_S4096x1_0_1 : S1x1.BroadcastsInDim S4096x1 (![0, 1] : Fin 2 → Fin S4096x1.rank)
  dot_S262144x64_S64x256_S262144x256_1_0_0_1_n_n_wf : DotDims.WF S262144x64 S64x256 S262144x256 [1] [0] [0] [1] [] []
  dot_S262144x256_S256x128_S262144x128_1_0_0_1_n_n_wf : DotDims.WF S262144x256 S256x128 S262144x128 [1] [0] [0] [1] [] []
  dot_S262144x128_S128x256_S262144x256_1_0_0_1_n_n_wf : DotDims.WF S262144x128 S128x256 S262144x256 [1] [0] [0] [1] [] []
  dot_S262144x128_S128x64_S262144x64_1_0_0_1_n_n_wf : DotDims.WF S262144x128 S128x64 S262144x64 [1] [0] [0] [1] [] []
  dot_S262144x64_S64x1_S262144x1_1_0_0_1_n_n_wf : DotDims.WF S262144x64 S64x1 S262144x1 [1] [0] [0] [1] [] []
  dot_S4096x137_S137x256_S4096x256_1_0_0_1_n_n_wf : DotDims.WF S4096x137 S137x256 S4096x256 [1] [0] [0] [1] [] []
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []

variable [Facts₀]

def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf
def dot_S4096x137_S137x256_S4096x256_1_0_0_1_n_n : DotDims S4096x137 S137x256 S4096x256 where
  lhsContracting := [1]
  rhsContracting := [0]
  lhsNonContracting := [0]
  rhsNonContracting := [1]
  lhsBatch := []
  rhsBatch := []
  wf := dot_S4096x137_S137x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.LibBatchRows.lean ====
/-
  LAYOUT OPERATIONS ON A BATCH OF ROW TABLES, read at an index.

  A batch of `A` tables of `B` rows is kept either as a three-axis array `[A, B, C]` or flattened to `[A·B, C]`, row `n` of
  table `p` at flat row `p·B + n` (`row`).  Read here at an index given by its coordinates: the casts between the two forms
  (also with a trailing unit axis in place of `C`), the broadcasts that repeat a per-table row, a shared row or a per-row
  number across a table, a sum over the rows of each table or over the columns of each flat row, and two slices of a table
  (its first row's leading columns; one column of every row).  All extents are parameters; the flat row count `R` comes with
  the equation `R = A * B`.  No algebra of the extended reals is used.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BatchRows

open Idealize.ShloMosaic Idealize.ShloMosaic.ValueIdx

variable {α : Type}

/-- Row `n` of table `p` in the flattened array. -/
def row {A B R : ℕ} (hR : R = A * B) (p : Fin A) (n : Fin B) : Fin R :=
  ⟨p.val * B + n.val, by
    subst hR
    exact Nat.lt_of_lt_of_le (Nat.add_lt_add_left n.isLt _) (by rw [← Nat.succ_mul]; exact Nat.mul_le_mul_right _ p.isLt)⟩

theorem row_val {A B R : ℕ} (hR : R = A * B) (p : Fin A) (n : Fin B) : (row hR p n).val = p.val * B + n.val := rfl

/-- Every flat row is some table's row. -/
theorem exists_row {A B R : ℕ} (hR : R = A * B) (hB : 0 < B) (r : Fin R) : ∃ (p : Fin A) (n : Fin B), r = row hR p n := by
  subst hR
  have hr : r.val < B * A := lt_of_lt_of_eq r.isLt (Nat.mul_comm A B)
  refine ⟨⟨r.val / B, Nat.div_lt_of_lt_mul hr⟩, ⟨r.val % B, Nat.mod_lt _ hB⟩, Fin.ext ?_⟩
  show r.val = r.val / B * B + r.val % B
  exact (Nat.div_add_mod' r.val B).symm

/-! ## Casts between the two forms -/

theorem cast_abc_rc {A B C R : ℕ} (hR : R = A * B) (x : (⟨3, ![A, B, C]⟩ : Shape).Idx → α)
    (h : (⟨3, ![A, B, C]⟩ : Shape).ShapeCasts ⟨2, ![R, C]⟩) (p : Fin A) (n : Fin B) (c : Fin C) :
    shapeCast ⟨2, ![R, C]⟩ x h (ix2 (row hR p n) c) = x (ix3 p n c) :=
  shapeCast_apply x h _ _ (by rw [Shape.rowMajor_val_three, Shape.rowMajor_val_two]; rfl)

theorem cast_rc_abc {A B C R : ℕ} (hR : R = A * B) (x : (⟨2, ![R, C]⟩ : Shape).Idx → α)
    (h : (⟨2, ![R, C]⟩ : Shape).ShapeCasts ⟨3, ![A, B, C]⟩) (p : Fin A) (n : Fin B) (c : Fin C) :
    shapeCast ⟨3, ![A, B, C]⟩ x h (ix3 p n c) = x (ix2 (row hR p n) c) :=
  shapeCast_apply x h _ _ (by rw [Shape.rowMajor_val_three, Shape.rowMajor_val_two]; rfl)

theorem cast_ab_r1 {A B R : ℕ} (hR : R = A * B) (x : (⟨2, ![A, B]⟩ : Shape).Idx → α)
    (h : (⟨2, ![A, B]⟩ : Shape).ShapeCasts ⟨2, ![R, 1]⟩) (p : Fin A) (n : Fin B) (u : Fin 1) :
    shapeCast ⟨2, ![R, 1]⟩ x h (ix2 (row hR p n) u) = x (ix2 p n) :=
  shapeCast_apply x h _ _ (by
    have hu : u.val = 0 := by omega
    rw [Shape.rowMajor_val_two, Shape.rowMajor_val_two]
    show p.val * B + n.val = (p.val * B + n.val) * 1 + u.val
    omega)

theorem cast_r1_ab {A B R : ℕ} (hR : R = A * B) (x : (⟨2, ![R, 1]⟩ : Shape).Idx → α)
    (h : (⟨2, ![R, 1]⟩ : Shape).ShapeCasts ⟨2, ![A, B]⟩) (p : Fin A) (n : Fin B) :
    shapeCast ⟨2, ![A, B]⟩ x h (ix2 p n) = x (ix2 (row hR p n) (0 : Fin 1)) :=
  shapeCast_apply x h _ _ (by
    rw [Shape.rowMajor_val_two, Shape.rowMajor_val_two]
    show (p.val * B + n.val) * 1 + 0 = p.val * B + n.val
    omega)

/-! ## Repeating a row or a number across a table -/

/-- A per-table row `[A, C]` cast to `[A, 1, C]` and broadcast over the table's rows. -/
theorem bcast_ac_abc {A B C : ℕ} (x : (⟨2, ![A, C]⟩ : Shape).Idx → α)
    (hc : (⟨2, ![A, C]⟩ : Shape).ShapeCasts ⟨3, ![A, 1, C]⟩) (hb : (⟨3, ![A, 1, C]⟩ : Shape).Broadcasts ⟨3, ![A, B, C]⟩)
    (p : Fin A) (n : Fin B) (c : Fin C) :
    broadcastTo ⟨3, ![A, B, C]⟩ (shapeCast ⟨3, ![A, 1, C]⟩ x hc) hb (ix3 p n c) = x (ix2 p c) := by
  have e1 : broadcastTo ⟨3, ![A, B, C]⟩ (shapeCast ⟨3, ![A, 1, C]⟩ x hc) hb (ix3 p n c)
      = shapeCast ⟨3, ![A, 1, C]⟩ x hc (ix3 p (0 : Fin 1) c) :=
    broadcastTo_apply _ hb (ix3 p n c) (ix3 p (0 : Fin 1) c) fun ax => by
      match ax with
      | ⟨0, _⟩ =>
        show p.val = if A = 1 then 0 else p.val
        split
        · have := p.isLt; omega
        · rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show p.val * C + c.val = (p.val * 1 + 0) * C + c.val
    rw [Nat.mul_one, Nat.add_zero])

/-- A shared row `[1, C]` cast to `[1, 1, C]` and broadcast over every table's rows. -/
theorem bcast_1c_abc {A B C : ℕ} (x : (⟨2, ![1, C]⟩ : Shape).Idx → α)
    (hc : (⟨2, ![1, C]⟩ : Shape).ShapeCasts ⟨3, ![1, 1, C]⟩) (hb : (⟨3, ![1, 1, C]⟩ : Shape).Broadcasts ⟨3, ![A, B, C]⟩)
    (p : Fin A) (n : Fin B) (c : Fin C) :
    broadcastTo ⟨3, ![A, B, C]⟩ (shapeCast ⟨3, ![1, 1, C]⟩ x hc) hb (ix3 p n c) = x (ix2 (0 : Fin 1) c) := by
  have e1 : broadcastTo ⟨3, ![A, B, C]⟩ (shapeCast ⟨3, ![1, 1, C]⟩ x hc) hb (ix3 p n c)
      = shapeCast ⟨3, ![1, 1, C]⟩ x hc (ix3 (0 : Fin 1) (0 : Fin 1) c) :=
    broadcastTo_apply _ hb (ix3 p n c) (ix3 (0 : Fin 1) (0 : Fin 1) c) fun ax => by
      match ax with
      | ⟨0, _⟩ => rfl
      | ⟨1, _⟩ => rfl
      | ⟨2, _⟩ =>
        show c.val = if C = 1 then 0 else c.val
        split
        · have := c.isLt; omega
        · rfl
  rw [e1]
  exact shapeCast_apply x hc _ _ (by
    rw [Shape.rowMajor_val_three, Shape.rowMajor_val_two]
    show 0 * C + c.val = (0 * 1 + 0) * C + c.val
    omega)

/-- A per-row number `[A, B]` cast to `[A, B, 1]` and broadcast across the row's columns. -/
theorem bcast_ab_abc {A B C : ℕ} (x : (⟨2, ![A, B]⟩ : Shape).Idx → α)
    (hc : (⟨2, ![A, B]⟩ : Shape).ShapeCasts ⟨3, ![A, B, 1]⟩) (hb : (⟨3, ![A, B, 1]⟩ : Shape).Broadcasts ⟨3, ![A, B, C]⟩)
    (p : Fin A) (n : Fin B) (c : Fin C) :
    broadcastTo ⟨3, ![A, B, C]⟩ (shapeCast ⟨3, ![A, B, 1]⟩ x hc) hb (ix3 p n c) = x (ix2 p n) := by
  have e1 : broadcastTo ⟨3, ![A, B, C]⟩ (shapeCast ⟨3, ![A, B, 1]⟩ x hc) hb (ix3 p n c)
      = shapeCast ⟨3, ![A, B, 1]⟩ x hc (ix3 p n (0 : Fin 1)) :=
    broadcastTo_apply _ hb (ix3 p n c) (ix3 p n (0 : Fin 1)) fun ax => by
      match ax with
      | ⟨0, _⟩ =>
        show p.val = if A = 1 then 0 else p.val
        split
        · have := p.isLt; omega
        · rfl
      | ⟨1, _⟩ =>
        show n.val = if B = 1 then 0 else n.val
        split
        · have := n.isLt; omega
        · rfl
      | ⟨2, _⟩ => rfl
  rw [e1]
  exact shapeCast_apply x hc _ _ (by
    rw [Shape.rowMajor_val_three, Shape.rowMajor_val_two]
    show p.val * B + n.val = (p.val * B + n.val) * 1 + 0
    omega)

/-- A one-entry array `[1, 1]` broadcast down a column `[R, 1]`. -/
theorem bcast_11_r1 {R : ℕ} (x : (⟨2, ![1, 1]⟩ : Shape).Idx → α) (hb : (⟨2, ![1, 1]⟩ : Shape).Broadcasts ⟨2, ![R, 1]⟩)
    (r : Fin R) (u : Fin 1) : broadcastTo ⟨2, ![R, 1]⟩ x hb (ix2 r u) = x (ix2 (0 : Fin 1) (0 : Fin 1)) :=
  broadcastTo_apply x hb (ix2 r u) (ix2 (0 : Fin 1) (0 : Fin 1)) fun ax => by
    match ax with
    | ⟨0, _⟩ => rfl
    | ⟨1, _⟩ => rfl

/-! ## Sums -/

/-- The sum over the rows of each table (axis 1 of `[A, B, C]`), from the zero word. -/
theorem sum_rows {A B C : ℕ} {φ : FTy} (x : FVec Ideal ⟨3, ![A, B, C]⟩ φ) (acc : BitVec φ.bits)
    (h : (⟨3, ![A, B, C]⟩ : Shape).Reduces [(1 : Fin 3)] ⟨2, ![A, C]⟩) (hφ : FKind.Formats φ)
    (hacc : acc = FKind.add.neutral φ hφ) (p : Fin A) (c : Fin C) :
    multiReduction .add [(1 : Fin 3)] ⟨2, ![A, C]⟩ x acc h hφ hacc (ix2 p c) = ∑ n : Fin B, x (ix3 p n c) := by
  refine (Ideal.multiReduction_add_single x acc h hφ hacc (ix2 p c)).trans ?_
  refine Finset.sum_congr rfl fun n _ => congrArg x ?_
  funext a
  apply Fin.ext
  match a with
  | ⟨0, _⟩ => rfl
  | ⟨1, _⟩ => rfl
  | ⟨2, _⟩ => rfl

/-- The sum over the columns of each flat row (axis 1 of `[R, E]`), from the zero word. -/
theorem sum_cols {R E : ℕ} {φ : FTy} (x : FVec Ideal ⟨2, ![R, E]⟩ φ) (acc : BitVec φ.bits)
    (h : (⟨2, ![R, E]⟩ : Shape).Reduces [(1 : Fin 2)] ⟨1, ![R]⟩) (hφ : FKind.Formats φ)
    (hacc : acc = FKind.add.neutral φ hφ) (r : Fin R) :
    multiReduction .add [(1 : Fin 2)] ⟨1, ![R]⟩ x acc h hφ hacc (ix1 r) = ∑ e : Fin E, x (ix2 r e) := by
  refine (Ideal.multiReduction_add_single x acc h hφ hacc (ix1 r)).trans ?_
  refine Finset.sum_congr rfl fun e _ => congrArg x ?_
  funext a
  apply Fin.ext
  match a with
  | ⟨0, _⟩ => rfl
  | ⟨1, _⟩ => rfl

/-! ## Two slices of a table -/

/-- The leading `M` columns of row 0 of every table, as `[A, M]`. -/
theorem head_row {A B C M : ℕ} (hM : M ≤ C) (hB : 0 < B) (x : (⟨3, ![A, B, C]⟩ : Shape).Idx → α)
    (hs : (⟨3, ![A, B, C]⟩ : Shape).Slices ![0, 0, 0] ⟨3, ![A, 1, M]⟩)
    (hc : (⟨3, ![A, 1, M]⟩ : Shape).ShapeCasts ⟨2, ![A, M]⟩) (p : Fin A) (i : Fin M) :
    shapeCast ⟨2, ![A, M]⟩ (extractStridedSlice ⟨3, ![A, 1, M]⟩ ![0, 0, 0] x hs) hc (ix2 p i)
      = x (ix3 p ⟨0, hB⟩ ⟨i.val, by have := i.isLt; omega⟩) := by
  have e1 : shapeCast ⟨2, ![A, M]⟩ (extractStridedSlice ⟨3, ![A, 1, M]⟩ ![0, 0, 0] x hs) hc (ix2 p i)
      = extractStridedSlice ⟨3, ![A, 1, M]⟩ ![0, 0, 0] x hs (ix3 p (0 : Fin 1) i) :=
    shapeCast_apply _ hc _ _ (by
      rw [Shape.rowMajor_val_three, Shape.rowMajor_val_two]
      show (p.val * 1 + 0) * M + i.val = p.val * M + i.val
      rw [Nat.mul_one, Nat.add_zero])
  rw [e1]
  refine extractStridedSlice_apply _ x hs _ _ fun a => ?_
  match a with
  | ⟨0, _⟩ => show p.val = 0 + p.val; omega
  | ⟨1, _⟩ => show 0 = 0 + 0; rfl
  | ⟨2, _⟩ => show i.val = 0 + i.val; omega

/-- Column `o` of every row of every table, as `[A, B]`. -/
theorem column {A B C : ℕ} (o : ℕ) (ho : o < C) (x : (⟨3, ![A, B, C]⟩ : Shape).Idx → α)
    (hs : (⟨3, ![A, B, C]⟩ : Shape).Slices ![0, 0, o] ⟨3, ![A, B, 1]⟩)
    (hc : (⟨3, ![A, B, 1]⟩ : Shape).ShapeCasts ⟨2, ![A, B]⟩) (p : Fin A) (n : Fin B) :
    shapeCast ⟨2, ![A, B]⟩ (extractStridedSlice ⟨3, ![A, B, 1]⟩ ![0, 0, o] x hs) hc (ix2 p n)
      = x (ix3 p n ⟨o, ho⟩) := by
  have e1 : shapeCast ⟨2, ![A, B]⟩ (extractStridedSlice ⟨3, ![A, B, 1]⟩ ![0, 0, o] x hs) hc (ix2 p n)
      = extractStridedSlice ⟨3, ![A, B, 1]⟩ ![0, 0, o] x hs (ix3 p n (0 : Fin 1)) :=
    shapeCast_apply _ hc _ _ (by
      rw [Shape.rowMajor_val_three, Shape.rowMajor_val_two]
      show (p.val * B + n.val) * 1 + 0 = p.val * B + n.val
      omega)
  rw [e1]
  refine extractStridedSlice_apply _ x hs _ _ fun a => ?_
  match a with
  | ⟨0, _⟩ => show p.val = 0 + p.val; omega
  | ⟨1, _⟩ => show n.val = 0 + n.val; omega
  | ⟨2, _⟩ => show o = o + 0; rfl

end Cert.BatchRows

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«141150_j57114475102901_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.NetSpec.lean ====
/-
  THE VALUE NETWORK ON ONE BATCH ELEMENT, at the ideal values.

  One batch element is a table `x n d` of 64 neighbours by 64 features.  Every neighbour row goes through two stacked
  two-layer perceptrons (`m1`, then `m2` from the unmasked `m1`); both results are multiplied by the neighbour's visibility
  `vis n` (1 when feature 61 is positive, else 0).  The mean of the masked `m1` over the neighbours (`gs`) is appended to
  every masked row and a three-layer perceptron gives one score per neighbour; the scores are exponentiated, zeroed where
  the score is exactly zero, normalised by their sum over the neighbours (`wgt`), and weight the masked `m2` rows into one
  row (`weighted`).  The first nine features of neighbour 0 followed by that row go through a last three-layer perceptron
  whose single output is the element's value.

  The first layer of the score perceptron and of the last perceptron act on a concatenated row; here each is written as the
  sum of the two partial products (the weight's upper rows against the first part, its lower rows against the second).
  `sum_cat` is the law that a product sum over a concatenated row is the sum of the two partial product sums; it uses only
  that addition of extended reals is commutative and associative (`Fin.sum_univ_add`), so no finiteness is needed.
-/
import proofs.«141150_j57114475102901_2_alg».proof.Proof.LibRowBias

noncomputable section

open scoped BigOperators

namespace Cert.Net

open Idealize.ShloMosaic Cert.DenseRow Cert.RowBias

/-- The number an `i1` stands for: 0 or 1. -/
def ind (b : BitVec 1) : EReal := ((b.toNat : ℝ) : EReal)

/-- An `i1` widened to 32 bits and read as a signed integer is the same number. -/
theorem ind_signed (b : BitVec 1) : (((b.setWidth 32).toInt : ℝ) : EReal) = ind b := by
  have h : ∀ b : BitVec 1, (b.setWidth 32).toInt = (b.toNat : ℤ) := by decide
  unfold ind
  rw [h b]
  norm_cast

/-- The divisor of the mean over the 64 neighbours, as the program spells it (the word of 64.0; never evaluated). -/
def c64 : EReal := Ideal.ofBits .f32 0x42800000#32

section
variable (w1a : Fin 64 → Fin 256 → EReal) (b1a : Fin 256 → EReal) (w1b : Fin 256 → Fin 128 → EReal) (b1b : Fin 128 → EReal)
  (w2a : Fin 128 → Fin 256 → EReal) (b2a : Fin 256 → EReal) (w2b : Fin 256 → Fin 128 → EReal) (b2b : Fin 128 → EReal)
  (wa1t wa1b : Fin 128 → Fin 128 → EReal) (ba1 : Fin 128 → EReal) (wa2 : Fin 128 → Fin 64 → EReal) (ba2 : Fin 64 → EReal)
  (wa3 : Fin 64 → EReal) (ba3 : EReal)
  (w3as : Fin 9 → Fin 256 → EReal) (w3af : Fin 128 → Fin 256 → EReal) (b3a : Fin 256 → EReal)
  (w3b : Fin 256 → Fin 128 → EReal) (b3b : Fin 128 → EReal) (w3c : Fin 128 → EReal) (b3c : EReal)
  (x : Fin 64 → Fin 64 → EReal)

/-- First perceptron, hidden layer, of neighbour `n`. -/
def h1 (n : Fin 64) : Fin 256 → EReal := act zf (layer (x n) w1a b1a)
/-- First perceptron's output row of neighbour `n` (rectified). -/
def m1 (n : Fin 64) : Fin 128 → EReal := act zf (layer (h1 w1a b1a x n) w1b b1b)
/-- Second perceptron, hidden layer. -/
def h2 (n : Fin 64) : Fin 256 → EReal := act zf (layer (m1 w1a b1a w1b b1b x n) w2a b2a)
/-- Second perceptron's output row (not rectified). -/
def m2 (n : Fin 64) : Fin 128 → EReal := layer (h2 w1a b1a w1b b1b w2a b2a x n) w2b b2b
/-- Visibility of neighbour `n`: 1 when its feature 61 is positive. -/
def vis (n : Fin 64) : EReal := ind (Ideal.cmp .ogt (x n 61) zf)
/-- The masked rows. -/
def m1v (n : Fin 64) (k : Fin 128) : EReal := m1 w1a b1a w1b b1b x n k * vis x n
def m2v (n : Fin 64) (k : Fin 128) : EReal := m2 w1a b1a w1b b1b w2a b2a w2b b2b x n k * vis x n
/-- The mean of the masked first rows over the neighbours. -/
def gs (k : Fin 128) : EReal := Ideal.div (∑ n : Fin 64, m1v w1a b1a w1b b1b x n k) c64
/-- Score perceptron, first layer: the masked row against the upper weight rows plus the mean row against the lower ones. -/
def a1 (n : Fin 64) : Fin 128 → EReal := act zf fun c =>
  ((∑ k : Fin 128, m1v w1a b1a w1b b1b x n k * wa1t k c) + ∑ k : Fin 128, gs w1a b1a w1b b1b x k * wa1b k c) + ba1 c
def a2 (n : Fin 64) : Fin 64 → EReal := act zf (layer (a1 w1a b1a w1b b1b wa1t wa1b ba1 x n) wa2 ba2)
/-- The score of neighbour `n`. -/
def score (n : Fin 64) : EReal := (∑ e : Fin 64, a2 w1a b1a w1b b1b wa1t wa1b ba1 wa2 ba2 x n e * wa3 e) + ba3
/-- The exponentiated score, zeroed where the score is exactly zero. -/
def sexp (n : Fin 64) : EReal :=
  Ideal.exp (score w1a b1a w1b b1b wa1t wa1b ba1 wa2 ba2 wa3 ba3 x n)
    * ind (Ideal.cmp .one (score w1a b1a w1b b1b wa1t wa1b ba1 wa2 ba2 wa3 ba3 x n) zf)
/-- The attention weight of neighbour `n`. -/
def wgt (n : Fin 64) : EReal :=
  Ideal.div (sexp w1a b1a w1b b1b wa1t wa1b ba1 wa2 ba2 wa3 ba3 x n)
    (∑ n' : Fin 64, sexp w1a b1a w1b b1b wa1t wa1b ba1 wa2 ba2 wa3 ba3 x n')
/-- The attention-weighted sum of the masked second rows. -/
def weighted (k : Fin 128) : EReal :=
  ∑ n : Fin 64, wgt w1a b1a w1b b1b wa1t wa1b ba1 wa2 ba2 wa3 ba3 x n * m2v w1a b1a w1b b1b w2a b2a w2b b2b x n k
/-- Last perceptron, first layer: the nine self features against the upper weight rows plus the pooled row against the rest. -/
def h3a : Fin 256 → EReal := act zf fun j =>
  ((∑ i : Fin 9, x 0 ⟨i.val, by have := i.isLt; omega⟩ * w3as i j)
    + ∑ k : Fin 128, weighted w1a b1a w1b b1b w2a b2a w2b b2b wa1t wa1b ba1 wa2 ba2 wa3 ba3 x k * w3af k j) + b3a j
def h3b : Fin 128 → EReal :=
  act zf (layer (h3a w1a b1a w1b b1b w2a b2a w2b b2b wa1t wa1b ba1 wa2 ba2 wa3 ba3 w3as w3af b3a x) w3b b3b)
/-- The value of the batch element. -/
def value : EReal :=
  (∑ k : Fin 128, h3b w1a b1a w1b b1b w2a b2a w2b b2b wa1t wa1b ba1 wa2 ba2 wa3 ba3 w3as w3af b3a w3b b3b x k * w3c k) + b3c

end

/-- A product sum over a concatenated row is the sum of the two partial product sums. -/
theorem sum_cat {A B C : ℕ} (hC : C = A + B) (u : Fin A → EReal) (v : Fin B → EReal) (g : Fin C → EReal) :
    ∑ k : Fin C, cat hC u v k * g k
      = (∑ a : Fin A, u a * g ⟨a.val, by have := a.isLt; omega⟩)
        + ∑ b : Fin B, v b * g ⟨A + b.val, by have := b.isLt; omega⟩ := by
  subst hC
  rw [Fin.sum_univ_add]
  congr 1
  · refine Finset.sum_congr rfl fun a _ => ?_
    have e : cat rfl u v (Fin.castAdd B a) = u a := by
      unfold cat
      rw [dif_pos (show (Fin.castAdd B a).val < A from a.isLt)]
      rfl
    rw [e]
    rfl
  · refine Finset.sum_congr rfl fun b _ => ?_
    have e : cat rfl u v (Fin.natAdd A b) = v b := by
      unfold cat
      rw [dif_neg (show ¬ (Fin.natAdd A b).val < A from by simp)]
      congr 1
      apply Fin.ext
      simp
    rw [e]
    rfl

/-- THE RESULT ARRAY as one function of the 21 argument arrays: entry `(b, 0)` is the value of batch element `b`, the table
    `state[b]`, under the weights read off the arguments — the score perceptron's first weight `wa1` as its upper and
    lower 128 rows, the last perceptron's first weight `w3a` as its upper 9 and lower 128 rows, the one-column weights
    `wa3`, `w3c` as their column, the one-entry biases as their entry. -/
def G (a0 : (⟨3, ![4096, 64, 64]⟩ : Shape).Idx → EReal) (a1 : (⟨2, ![64, 256]⟩ : Shape).Idx → EReal)
    (a2 : (⟨1, ![256]⟩ : Shape).Idx → EReal) (a3 : (⟨2, ![256, 128]⟩ : Shape).Idx → EReal)
    (a4 : (⟨1, ![128]⟩ : Shape).Idx → EReal) (a5 : (⟨2, ![128, 256]⟩ : Shape).Idx → EReal)
    (a6 : (⟨1, ![256]⟩ : Shape).Idx → EReal) (a7 : (⟨2, ![256, 128]⟩ : Shape).Idx → EReal)
    (a8 : (⟨1, ![128]⟩ : Shape).Idx → EReal) (a9 : (⟨2, ![256, 128]⟩ : Shape).Idx → EReal)
    (a10 : (⟨1, ![128]⟩ : Shape).Idx → EReal) (a11 : (⟨2, ![128, 64]⟩ : Shape).Idx → EReal)
    (a12 : (⟨1, ![64]⟩ : Shape).Idx → EReal) (a13 : (⟨2, ![64, 1]⟩ : Shape).Idx → EReal)
    (a14 : (⟨1, ![1]⟩ : Shape).Idx → EReal) (a15 : (⟨2, ![137, 256]⟩ : Shape).Idx → EReal)
    (a16 : (⟨1, ![256]⟩ : Shape).Idx → EReal) (a17 : (⟨2, ![256, 128]⟩ : Shape).Idx → EReal)
    (a18 : (⟨1, ![128]⟩ : Shape).Idx → EReal) (a19 : (⟨2, ![128, 1]⟩ : Shape).Idx → EReal)
    (a20 : (⟨1, ![1]⟩ : Shape).Idx → EReal) : (⟨2, ![4096, 1]⟩ : Shape).Idx → EReal :=
  fun i => value (fun k j => a1 (ValueIdx.ix2 k j)) (fun j => a2 (ValueIdx.ix1 j)) (fun k j => a3 (ValueIdx.ix2 k j))
    (fun j => a4 (ValueIdx.ix1 j)) (fun k j => a5 (ValueIdx.ix2 k j)) (fun j => a6 (ValueIdx.ix1 j))
    (fun k j => a7 (ValueIdx.ix2 k j)) (fun j => a8 (ValueIdx.ix1 j))
    (fun k c => a9 (ValueIdx.ix2 (⟨k.val, by have := k.isLt; omega⟩ : Fin 256) c))
    (fun k c => a9 (ValueIdx.ix2 (⟨128 + k.val, by have := k.isLt; omega⟩ : Fin 256) c))
    (fun c => a10 (ValueIdx.ix1 c)) (fun k e => a11 (ValueIdx.ix2 k e)) (fun e => a12 (ValueIdx.ix1 e))
    (fun e => a13 (ValueIdx.ix2 e (0 : Fin 1))) (a14 (ValueIdx.ix1 (0 : Fin 1)))
    (fun i' j => a15 (ValueIdx.ix2 (⟨i'.val, by have := i'.isLt; omega⟩ : Fin 137) j))
    (fun k j => a15 (ValueIdx.ix2 (⟨9 + k.val, by have := k.isLt; omega⟩ : Fin 137) j))
    (fun j => a16 (ValueIdx.ix1 j)) (fun k j => a17 (ValueIdx.ix2 k j)) (fun j => a18 (ValueIdx.ix1 j))
    (fun k => a19 (ValueIdx.ix2 k (0 : Fin 1))) (a20 (ValueIdx.ix1 (0 : Fin 1)))
    (fun n d => a0 (ValueIdx.ix3 (i 0) n d))

end Cert.Net

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«141150_j57114475102901_2_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.KernelRows.lean ====
/-
  THE KERNEL'S BODY ON ONE BLOCK OF 128 BATCH ELEMENTS, read row by row at the ideal values.

  The body works on the block's 128 tables flattened to 8192 rows (row `n` of table `p` at flat row `64 p + n`).  Each of
  its named stages is read here at an index: a stage that acts row by row (the dense layers, the rectifier, the mask) at a
  flat row is the specification's row function of that table's row; a stage that pools over a table's rows (the mean, the
  normaliser of the attention weights, the weighted sum) at table `p` is the specification's sum over that table's 64 rows.
  The changes of float format are the identity at the ideal values.  No sum is regrouped here: the specification is written
  in the body's own arrangement (two partial products for each split weight).

  Each dense layer is read by one step lemma that takes what the operand's row is (a hypothesis) and returns what the
  result's row is, so the stages chain.
-/
import proofs.«141150_j57114475102901_2_alg».proof.Proof.Gen.KernelIdeal.Skeleton
import proofs.«141150_j57114475102901_2_alg».proof.Proof.LibBatchRows
import proofs.«141150_j57114475102901_2_alg».proof.Proof.LibColumn
import proofs.«141150_j57114475102901_2_alg».proof.Proof.NetSpec
import proofs.«141150_j57114475102901_2_alg».proof.Proof.LibDenseStep

noncomputable section

open scoped BigOperators

namespace Cert.KernelNet

open Cert.KernelIdeal Cert.KernelIdeal.Gen Idealize.ShloMosaic Idealize.ShloMosaic.ValueIdx Idealize.ShloMosaic.ColumnLayout
open Cert.DenseRow Cert.RowBias Cert.BatchRows Cert.Net Cert.DenseStep

/-! ## The contraction records: operand indices at an output index -/

theorem hl_a : ∀ (p : Fin 8192) (c : Fin 256) (k : Fin 64),
    dot_S8192x64_S64x256_S8192x256_1_0_0_1_n_n.lhsIdx (ix2 p c) ((contrEquiv1 dot_S8192x64_S64x256_S8192x256_1_0_0_1_n_n 64 rfl rfl).symm k) = ix2 p k := by
  plain_lhs dot_S8192x64_S64x256_S8192x256_1_0_0_1_n_n 64
theorem hr_a : ∀ (p : Fin 8192) (c : Fin 256) (k : Fin 64),
    dot_S8192x64_S64x256_S8192x256_1_0_0_1_n_n.rhsIdx (ix2 p c) ((contrEquiv1 dot_S8192x64_S64x256_S8192x256_1_0_0_1_n_n 64 rfl rfl).symm k) = ix2 k c := by
  plain_rhs dot_S8192x64_S64x256_S8192x256_1_0_0_1_n_n 64

theorem hl_b : ∀ (p : Fin 8192) (c : Fin 128) (k : Fin 256),
    dot_S8192x256_S256x128_S8192x128_1_0_0_1_n_n.lhsIdx (ix2 p c) ((contrEquiv1 dot_S8192x256_S256x128_S8192x128_1_0_0_1_n_n 256 rfl rfl).symm k) = ix2 p k := by
  plain_lhs dot_S8192x256_S256x128_S8192x128_1_0_0_1_n_n 256
theorem hr_b : ∀ (p : Fin 8192) (c : Fin 128) (k : Fin 256),
    dot_S8192x256_S256x128_S8192x128_1_0_0_1_n_n.rhsIdx (ix2 p c) ((contrEquiv1 dot_S8192x256_S256x128_S8192x128_1_0_0_1_n_n 256 rfl rfl).symm k) = ix2 k c := by
  plain_rhs dot_S8192x256_S256x128_S8192x128_1_0_0_1_n_n 256

theorem hl_c : ∀ (p : Fin 8192) (c : Fin 256) (k : Fin 128),
    dot_S8192x128_S128x256_S8192x256_1_0_0_1_n_n.lhsIdx (ix2 p c) ((contrEquiv1 dot_S8192x128_S128x256_S8192x256_1_0_0_1_n_n 128 rfl rfl).symm k) = ix2 p k := by
  plain_lhs dot_S8192x128_S128x256_S8192x256_1_0_0_1_n_n 128
theorem hr_c : ∀ (p : Fin 8192) (c : Fin 256) (k : Fin 128),
    dot_S8192x128_S128x256_S8192x256_1_0_0_1_n_n.rhsIdx (ix2 p c) ((contrEquiv1 dot_S8192x128_S128x256_S8192x256_1_0_0_1_n_n 128 rfl rfl).symm k) = ix2 k c := by
  plain_rhs dot_S8192x128_S128x256_S8192x256_1_0_0_1_n_n 128

theorem hl_g : ∀ (p : Fin 128) (c : Fin 128) (k : Fin 128),
    dot_S128x128_S128x128_S128x128_1_0_0_1_n_n.lhsIdx (ix2 p c) ((contrEquiv1 dot_S128x128_S128x128_S128x128_1_0_0_1_n_n 128 rfl rfl).symm k) = ix2 p k := by
  plain_lhs dot_S128x128_S128x128_S128x128_1_0_0_1_n_n 128
theorem hr_g : ∀ (p : Fin 128) (c : Fin 128) (k : Fin 128),
    dot_S128x128_S128x128_S128x128_1_0_0_1_n_n.rhsIdx (ix2 p c) ((contrEquiv1 dot_S128x128_S128x128_S128x128_1_0_0_1_n_n 128 rfl rfl).symm k) = ix2 k c := by
  plain_rhs dot_S128x128_S128x128_S128x128_1_0_0_1_n_n 128

theorem hl_t : ∀ (p : Fin 8192) (c : Fin 128) (k : Fin 128),
    dot_S8192x128_S128x128_S8192x128_1_0_0_1_n_n.lhsIdx (ix2 p c) ((contrEquiv1 dot_S8192x128_S128x128_S8192x128_1_0_0_1_n_n 128 rfl rfl).symm k) = ix2 p k := by
  plain_lhs dot_S8192x128_S128x128_S8192x128_1_0_0_1_n_n 128
theorem hr_t : ∀ (p : Fin 8192) (c : Fin 128) (k : Fin 128),
    dot_S8192x128_S128x128_S8192x128_1_0_0_1_n_n.rhsIdx (ix2 p c) ((contrEquiv1 dot_S8192x128_S128x128_S8192x128_1_0_0_1_n_n 128 rfl rfl).symm k) = ix2 k c := by
  plain_rhs dot_S8192x128_S128x128_S8192x128_1_0_0_1_n_n 128

theorem hl_e : ∀ (p : Fin 8192) (c : Fin 64) (k : Fin 128),
    dot_S8192x128_S128x64_S8192x64_1_0_0_1_n_n.lhsIdx (ix2 p c) ((contrEquiv1 dot_S8192x128_S128x64_S8192x64_1_0_0_1_n_n 128 rfl rfl).symm k) = ix2 p k := by
  plain_lhs dot_S8192x128_S128x64_S8192x64_1_0_0_1_n_n 128
theorem hr_e : ∀ (p : Fin 8192) (c : Fin 64) (k : Fin 128),
    dot_S8192x128_S128x64_S8192x64_1_0_0_1_n_n.rhsIdx (ix2 p c) ((contrEquiv1 dot_S8192x128_S128x64_S8192x64_1_0_0_1_n_n 128 rfl rfl).symm k) = ix2 k c := by
  plain_rhs dot_S8192x128_S128x64_S8192x64_1_0_0_1_n_n 128

theorem hl_s : ∀ (p : Fin 128) (c : Fin 256) (k : Fin 9),
    dot_S128x9_S9x256_S128x256_1_0_0_1_n_n.lhsIdx (ix2 p c) ((contrEquiv1 dot_S128x9_S9x256_S128x256_1_0_0_1_n_n 9 rfl rfl).symm k) = ix2 p k := by
  plain_lhs dot_S128x9_S9x256_S128x256_1_0_0_1_n_n 9
theorem hr_s : ∀ (p : Fin 128) (c : Fin 256) (k : Fin 9),
    dot_S128x9_S9x256_S128x256_1_0_0_1_n_n.rhsIdx (ix2 p c) ((contrEquiv1 dot_S128x9_S9x256_S128x256_1_0_0_1_n_n 9 rfl rfl).symm k) = ix2 k c := by
  plain_rhs dot_S128x9_S9x256_S128x256_1_0_0_1_n_n 9

theorem hl_f : ∀ (p : Fin 128) (c : Fin 256) (k : Fin 128),
    dot_S128x128_S128x256_S128x256_1_0_0_1_n_n.lhsIdx (ix2 p c) ((contrEquiv1 dot_S128x128_S128x256_S128x256_1_0_0_1_n_n 128 rfl rfl).symm k) = ix2 p k := by
  plain_lhs dot_S128x128_S128x256_S128x256_1_0_0_1_n_n 128
theorem hr_f : ∀ (p : Fin 128) (c : Fin 256) (k : Fin 128),
    dot_S128x128_S128x256_S128x256_1_0_0_1_n_n.rhsIdx (ix2 p c) ((contrEquiv1 dot_S128x128_S128x256_S128x256_1_0_0_1_n_n 128 rfl rfl).symm k) = ix2 k c := by
  plain_rhs dot_S128x128_S128x256_S128x256_1_0_0_1_n_n 128

theorem hl_h : ∀ (p : Fin 128) (c : Fin 128) (k : Fin 256),
    dot_S128x256_S256x128_S128x128_1_0_0_1_n_n.lhsIdx (ix2 p c) ((contrEquiv1 dot_S128x256_S256x128_S128x128_1_0_0_1_n_n 256 rfl rfl).symm k) = ix2 p k := by
  plain_lhs dot_S128x256_S256x128_S128x128_1_0_0_1_n_n 256
theorem hr_h : ∀ (p : Fin 128) (c : Fin 128) (k : Fin 256),
    dot_S128x256_S256x128_S128x128_1_0_0_1_n_n.rhsIdx (ix2 p c) ((contrEquiv1 dot_S128x256_S256x128_S128x128_1_0_0_1_n_n 256 rfl rfl).symm k) = ix2 k c := by
  plain_rhs dot_S128x256_S256x128_S128x128_1_0_0_1_n_n 256

theorem hl_v : ∀ (p : Fin 128) (c : Fin 1) (k : Fin 128),
    dot_S128x128_S128x1_S128x1_1_0_0_1_n_n.lhsIdx (ix2 p c) ((contrEquiv1 dot_S128x128_S128x1_S128x1_1_0_0_1_n_n 128 rfl rfl).symm k) = ix2 p k := by
  plain_lhs dot_S128x128_S128x1_S128x1_1_0_0_1_n_n 128
theorem hr_v : ∀ (p : Fin 128) (c : Fin 1) (k : Fin 128),
    dot_S128x128_S128x1_S128x1_1_0_0_1_n_n.rhsIdx (ix2 p c) ((contrEquiv1 dot_S128x128_S128x1_S128x1_1_0_0_1_n_n 128 rfl rfl).symm k) = ix2 k c := by
  plain_rhs dot_S128x128_S128x1_S128x1_1_0_0_1_n_n 128

/-- Flat row `64 p + n` of the block. -/
abbrev kr (p : Fin 128) (n : Fin 64) : Fin 8192 := row (A := 128) (B := 64) (R := 8192) (by norm_num) p n

/-! ## The stages -/

section Stages
variable (p : Fin 128)

/-- The nine self features: the leading columns of row 0 of table `p`. -/
theorem pay2_apply (v0 : FVec Ideal S128x64x64 .f32) (i : Fin 9) :
    k0_pay2 (F := Ideal) v0 (ix2 p i) = v0 (ix3 p (0 : Fin 64) ⟨i.val, by have := i.isLt; omega⟩) :=
  head_row (A := 128) (B := 64) (C := 64) (M := 9) (by norm_num) (by norm_num) v0 _ _ p i

/-- The visibility of row `n` of table `p`. -/
theorem pay3_apply (v0 : FVec Ideal S128x64x64 .f32) (n : Fin 64) :
    k0_pay3 (F := Ideal) v0 (ix2 p n) = vis (fun n d => v0 (ix3 p n d)) n :=
  (ind_signed _).trans (congrArg (fun y => ind (Ideal.cmp .ogt y zf))
    (column (A := 128) (B := 64) (C := 64) 61 (by norm_num) v0 _ _ p n))

/-- The visibility column on the flat rows. -/
theorem pay6_apply (v8 : FVec Ideal S128x64 .f32) (n : Fin 64) (u : Fin 1) :
    k0_pay6 (F := Ideal) v8 (ix2 (kr p n) u) = v8 (ix2 p n) :=
  cast_ab_r1 (A := 128) (B := 64) (R := 8192) (by norm_num) v8 _ p n u

/-- The first perceptron's output row. -/
theorem pay4_apply (v0 : FVec Ideal S128x64x64 .f32) (v11 : FVec Ideal S64x256 .bf16) (v14 : FVec Ideal S1x256 .f32)
    (v21 : FVec Ideal S256x128 .bf16) (v24 : FVec Ideal S1x128 .f32) (n : Fin 64) (k : Fin 128) :
    k0_pay4 (F := Ideal) v0 v11 v14 v21 v24 (ix2 (kr p n) k)
      = m1 (fun a b => v11 (ix2 a b)) (fun j => v14 (ix2 (0 : Fin 1) j)) (fun a b => v21 (ix2 a b))
          (fun j => v24 (ix2 (0 : Fin 1) j)) (fun n d => v0 (ix3 p n d)) n k := by
  unfold k0_pay4
  refine klayer_relu_row dot_S8192x256_S256x128_S8192x128_1_0_0_1_n_n rfl rfl hl_b hr_b _ _ (kr p n) _ (fun j => ?_) _ (fun a b => self_cast v21 _ a b) v24 _ _ k
  exact klayer_relu_row dot_S8192x64_S64x256_S8192x256_1_0_0_1_n_n rfl rfl hl_a hr_a _ _ (kr p n) _
    (fun d => cast_abc_rc (A := 128) (B := 64) (C := 64) (R := 8192) (by norm_num) v0 _ p n d) _
    (fun a b => self_cast v11 _ a b) v14 _ _ j

/-- The second perceptron's hidden layer before the rectifier. -/
theorem pay5_apply (v0 : FVec Ideal S128x64x64 .f32) (v11 : FVec Ideal S64x256 .bf16) (v14 : FVec Ideal S1x256 .f32)
    (v21 : FVec Ideal S256x128 .bf16) (v24 : FVec Ideal S1x128 .f32) (v31 : FVec Ideal S128x256 .bf16)
    (v34 : FVec Ideal S1x256 .f32) (n : Fin 64) (j : Fin 256) :
    k0_pay5 (F := Ideal) v0 v11 v14 v21 v24 v31 v34 (ix2 (kr p n) j)
      = layer (m1 (fun a b => v11 (ix2 a b)) (fun j => v14 (ix2 (0 : Fin 1) j)) (fun a b => v21 (ix2 a b))
          (fun j => v24 (ix2 (0 : Fin 1) j)) (fun n d => v0 (ix3 p n d)) n)
          (fun a b => v31 (ix2 a b)) (fun j => v34 (ix2 (0 : Fin 1) j)) j := by
  unfold k0_pay5
  exact klayer_row dot_S8192x128_S128x256_S8192x256_1_0_0_1_n_n rfl rfl hl_c hr_c _ _ (kr p n) _ (fun k => pay4_apply p v0 v11 v14 v21 v24 n k) _
    (fun a b => self_cast v31 _ a b) v34 _ _ j

/-- The masked second row: the second perceptron's output times the visibility. -/
theorem pay7_apply (v8 : FVec Ideal S128x64 .f32) (v37 : FVec Ideal S8192x256 .f32) (v41 : FVec Ideal S256x128 .bf16)
    (v44 : FVec Ideal S1x128 .f32) (n : Fin 64) (vs : EReal) (hv8 : v8 (ix2 p n) = vs)
    (pre : Fin 256 → EReal) (hv37 : ∀ j, v37 (ix2 (kr p n) j) = pre j) (k : Fin 128) :
    k0_pay7 (F := Ideal) v8 v37 v41 v44 (ix2 (kr p n) k)
      = layer (act zf pre) (fun a b => v41 (ix2 a b)) (fun j => v44 (ix2 (0 : Fin 1) j)) k * vs := by
  unfold k0_pay7
  exact congrArg₂ (· * ·)
    (klayer_row dot_S8192x256_S256x128_S8192x128_1_0_0_1_n_n rfl rfl hl_b hr_b _ _ (kr p n) (act zf pre) (fun j => congrArg (fun y => max y zf) (hv37 j)) _
      (fun a b => self_cast v41 _ a b) v44 _ _ k)
    ((broadcastTo_a1_ab_apply _ _ (kr p n) k).trans ((pay6_apply p v8 n 0).trans hv8))

end Stages

/-! ### The score perceptron up to its second product (one stage of the body), in pieces -/

/-- The masked first rows. -/
def k50 (v8 : FVec Ideal S128x64 .f32) (v29 : FVec Ideal S8192x128 .f32) : FVec Ideal S8192x128 .f32 :=
  mulf v29 (broadcastTo S8192x128 (k0_pay6 (F := Ideal) v8) broadcasts_S8192x1_S8192x128)

/-- Their mean over each table's rows. -/
def k56 (v50 : FVec Ideal S8192x128 .f32) : FVec Ideal S128x128 .f32 :=
  divf (multiReduction .add [1] S128x128 (shapeCast S128x64x128 v50 shapeCasts_S8192x128_S128x64x128) 0x00000000#32
      reduces_S128x64x128_S128x128 (.inl rfl) rfl)
    (broadcast S128x128 (Scalar.ofBits (F := Ideal) .f32 0x42800000#32))

/-- The first layer's sum before the rectifier, as `[128, 64, 128]`, rectified and flattened. -/
def k74 (v62 : FVec Ideal S8192x128 .f32) (v59 : FVec Ideal S128x128 .f32) (v67 : FVec Ideal S1x128 .f32) :
    FVec Ideal S8192x128 .f32 :=
  shapeCast S8192x128
    (maximumf
      (addf
        (addf (shapeCast S128x64x128 v62 shapeCasts_S8192x128_S128x64x128)
          (broadcastTo S128x64x128 (shapeCast S128x1x128 v59 shapeCasts_S128x128_S128x1x128) broadcasts_S128x1x128_S128x64x128))
        (broadcastTo S128x64x128 (shapeCast S1x1x128 (shapeCast S1x128 v67 shapeCasts_S1x128_S1x128) shapeCasts_S1x128_S1x1x128)
          broadcasts_S1x1x128_S128x64x128))
      (broadcast S128x64x128 (Scalar.ofBits (F := Ideal) .f32 0x00000000#32)))
    shapeCasts_S128x64x128_S8192x128

theorem pay8_eq (v8 : FVec Ideal S128x64 .f32) (v29 : FVec Ideal S8192x128 .f32) (v57 v60 : FVec Ideal S128x128 .f32)
    (v67 : FVec Ideal S1x128 .f32) (v75 : FVec Ideal S128x64 .f32) :
    k0_pay8 (F := Ideal) v8 v29 v57 v60 v67 v75
      = matmul dot_S8192x128_S128x64_S8192x64_1_0_0_1_n_n none
          (k74 (matmul dot_S8192x128_S128x128_S8192x128_1_0_0_1_n_n none (k50 v8 v29) (shapeCast S128x128 v60 shapeCasts_S128x128_S128x128)
                  (constant S8192x128 .f32 0x00000000#32))
               (matmul dot_S128x128_S128x128_S128x128_1_0_0_1_n_n none (k56 (k50 v8 v29)) (shapeCast S128x128 v57 shapeCasts_S128x128_S128x128)
                  (constant S128x128 .f32 0x00000000#32))
               v67)
          v75 (constant S8192x64 .f32 0x00000000#32) := rfl

section Score
variable (p : Fin 128)

theorem k50_apply (v8 : FVec Ideal S128x64 .f32) (v29 : FVec Ideal S8192x128 .f32) (n : Fin 64) (k : Fin 128)
    (vs : EReal) (hv8 : v8 (ix2 p n) = vs) (M : EReal) (hv29 : v29 (ix2 (kr p n) k) = M) :
    k50 v8 v29 (ix2 (kr p n) k) = M * vs :=
  congrArg₂ (· * ·) hv29 ((broadcastTo_a1_ab_apply _ _ (kr p n) k).trans ((pay6_apply p v8 n 0).trans hv8))

theorem k56_apply (v50 : FVec Ideal S8192x128 .f32) (MV : Fin 64 → Fin 128 → EReal)
    (h50 : ∀ n k, v50 (ix2 (kr p n) k) = MV n k) (k : Fin 128) :
    k56 v50 (ix2 p k) = Ideal.div (∑ n : Fin 64, MV n k) c64 := by
  unfold k56
  refine congrArg (fun y => Ideal.div y c64) ?_
  refine (sum_rows (A := 128) (B := 64) (C := 128) _ _ _ _ _ p k).trans ?_
  exact Finset.sum_congr rfl fun n _ =>
    (cast_rc_abc (A := 128) (B := 64) (C := 128) (R := 8192) (by norm_num) v50 _ p n k).trans (h50 n k)

theorem k74_apply (v62 : FVec Ideal S8192x128 .f32) (v59 : FVec Ideal S128x128 .f32) (v67 : FVec Ideal S1x128 .f32)
    (n : Fin 64) (c : Fin 128) (T B : EReal) (h62 : v62 (ix2 (kr p n) c) = T) (h59 : v59 (ix2 p c) = B) :
    k74 v62 v59 v67 (ix2 (kr p n) c) = max ((T + B) + v67 (ix2 (0 : Fin 1) c)) zf := by
  unfold k74
  refine (cast_abc_rc (A := 128) (B := 64) (C := 128) (R := 8192) (by norm_num) _ _ p n c).trans ?_
  refine congrArg (fun y => max y zf) ?_
  refine congrArg₂ (· + ·) (congrArg₂ (· + ·) ?_ ?_) ?_
  · exact (cast_rc_abc (A := 128) (B := 64) (C := 128) (R := 8192) (by norm_num) v62 _ p n c).trans h62
  · exact (bcast_ac_abc (A := 128) (B := 64) (C := 128) v59 _ _ p n c).trans h59
  · exact (bcast_1c_abc (A := 128) (B := 64) (C := 128) _ _ _ p n c).trans (self_cast v67 _ 0 c)

/-- The score perceptron's second product, before its bias: from the rows of the first perceptron and the visibilities
    of table `p`. -/
theorem pay8_apply (v8 : FVec Ideal S128x64 .f32) (v29 : FVec Ideal S8192x128 .f32) (v57 v60 : FVec Ideal S128x128 .f32)
    (v67 : FVec Ideal S1x128 .f32) (v75 : FVec Ideal S128x64 .f32)
    (vs : Fin 64 → EReal) (hv8 : ∀ n, v8 (ix2 p n) = vs n)
    (M : Fin 64 → Fin 128 → EReal) (hv29 : ∀ n k, v29 (ix2 (kr p n) k) = M n k) (n : Fin 64) (e : Fin 64) :
    k0_pay8 (F := Ideal) v8 v29 v57 v60 v67 v75 (ix2 (kr p n) e)
      = ∑ c : Fin 128,
          (act zf (fun c => ((∑ k : Fin 128, (M n k * vs n) * v60 (ix2 k c))
              + ∑ k : Fin 128, Ideal.div (∑ n' : Fin 64, M n' k * vs n') c64 * v57 (ix2 k c))
              + v67 (ix2 (0 : Fin 1) c)) c) * v75 (ix2 c e) := by
  rw [pay8_eq]
  refine kmm_row dot_S8192x128_S128x64_S8192x64_1_0_0_1_n_n rfl rfl hl_e hr_e _ v75 (kr p n) _ (fun c => ?_) _ (fun _ _ => rfl) e
  refine k74_apply p _ _ v67 n c _ _ ?_ ?_
  · exact kmm_row dot_S8192x128_S128x128_S8192x128_1_0_0_1_n_n rfl rfl hl_t hr_t _ _ (kr p n) _
      (fun k => k50_apply p v8 v29 n k (vs n) (hv8 n) (M n k) (hv29 n k)) _ (fun a b => self_cast v60 _ a b) c
  · exact kmm_row dot_S128x128_S128x128_S128x128_1_0_0_1_n_n rfl rfl hl_g hr_g _ _ p _
      (fun k => k56_apply p (k50 v8 v29) (fun n k => M n k * vs n)
        (fun n k => k50_apply p v8 v29 n k (vs n) (hv8 n) (M n k) (hv29 n k)) k) _ (fun a b => self_cast v57 _ a b) c

end Score

/-! ### Scores, attention weights and the pooled row (one stage of the body), in pieces -/

/-- The scores of the block's rows, as `[128, 64]`. -/
def k93 (v76 : FVec Ideal S8192x64 .f32) (v77 v83 : FVec Ideal S1x64 .f32) (v89 : FVec Ideal S1x1 .f32) : FVec Ideal S128x64 .f32 :=
  shapeCast S128x64
    (addf
      (shapeCast S8192x1
        (multiReduction .add [1] S8192
          (mulf
            (maximumf (addf v76 (broadcastTo S8192x64 (shapeCast S1x64 v77 shapeCasts_S1x64_S1x64) broadcasts_S1x64_S8192x64))
              (broadcast S8192x64 (Scalar.ofBits (F := Ideal) .f32 0x00000000#32)))
            (broadcastTo S8192x64 (shapeCast S1x64 v83 shapeCasts_S1x64_S1x64) broadcasts_S1x64_S8192x64))
          0x00000000#32 reduces_S8192x64_S8192 (.inl rfl) rfl)
        shapeCasts_S8192_S8192x1)
      (broadcastTo S8192x1 (shapeCast S1x1 v89 shapeCasts_S1x1_S1x1) broadcasts_S1x1_S8192x1))
    shapeCasts_S8192x1_S128x64

/-- The exponentiated scores, zeroed where the score is zero. -/
def k99 (v93 : FVec Ideal S128x64 .f32) : FVec Ideal S128x64 .f32 :=
  mulf (exp v93)
    (sitofp .f32 (extui 32 (cmpf .one v93 (broadcast S128x64 (Scalar.ofBits (F := Ideal) .f32 0x00000000#32))) natLt_1_32))

/-- Normalised over each table's rows. -/
def k103 (v99 : FVec Ideal S128x64 .f32) : FVec Ideal S128x64 .f32 :=
  divf v99
    (broadcastTo S128x64
      (shapeCast S128x1 (multiReduction .add [1] S128 v99 0x00000000#32 reduces_S128x64_S128 (.inl rfl) rfl) shapeCasts_S128_S128x1)
      broadcasts_S128x1_S128x64)

/-- The weighted sum of the masked second rows over each table's rows. -/
def k108 (v103 : FVec Ideal S128x64 .f32) (v52 : FVec Ideal S8192x128 .f32) : FVec Ideal S128x128 .f32 :=
  multiReduction .add [1] S128x128
    (mulf (broadcastTo S128x64x128 (shapeCast S128x64x1 v103 shapeCasts_S128x64_S128x64x1) broadcasts_S128x64x1_S128x64x128)
      (shapeCast S128x64x128 v52 shapeCasts_S8192x128_S128x64x128))
    0x00000000#32 reduces_S128x64x128_S128x128 (.inl rfl) rfl

theorem pay9_eq (v2 : FVec Ideal S128x9 .f32) (v52 : FVec Ideal S8192x128 .f32) (v76 : FVec Ideal S8192x64 .f32)
    (v77 v83 : FVec Ideal S1x64 .f32) (v89 : FVec Ideal S1x1 .f32) (v109 : FVec Ideal S9x256 .f32) (v112 : FVec Ideal S128x256 .f32) :
    k0_pay9 (F := Ideal) v2 v52 v76 v77 v83 v89 v109 v112
      = addf (matmul dot_S128x9_S9x256_S128x256_1_0_0_1_n_n none v2 (shapeCast S9x256 v109 shapeCasts_S9x256_S9x256) (constant S128x256 .f32 0x00000000#32))
          (matmul dot_S128x128_S128x256_S128x256_1_0_0_1_n_n none (k108 (k103 (k99 (k93 v76 v77 v83 v89))) v52) (shapeCast S128x256 v112 shapeCasts_S128x256_S128x256)
            (constant S128x256 .f32 0x00000000#32)) := rfl

section Pool
variable (p : Fin 128)

theorem k93_apply (v76 : FVec Ideal S8192x64 .f32) (v77 v83 : FVec Ideal S1x64 .f32) (v89 : FVec Ideal S1x1 .f32)
    (n : Fin 64) (Apre : Fin 64 → EReal) (h76 : ∀ e, v76 (ix2 (kr p n) e) = Apre e) :
    k93 v76 v77 v83 v89 (ix2 p n)
      = (∑ e : Fin 64, max (Apre e + v77 (ix2 (0 : Fin 1) e)) zf * v83 (ix2 (0 : Fin 1) e)) + v89 (ix2 (0 : Fin 1) (0 : Fin 1)) := by
  unfold k93
  refine (cast_r1_ab (A := 128) (B := 64) (R := 8192) (by norm_num) _ _ p n).trans ?_
  refine congrArg₂ (· + ·) ?_ ?_
  · refine (shapeCast_a_a1_apply _ _ (kr p n) 0).trans ?_
    refine (sum_cols (R := 8192) (E := 64) _ _ _ _ _ (kr p n)).trans ?_
    refine Finset.sum_congr rfl fun e _ => ?_
    exact congrArg₂ (· * ·)
      (congrArg (fun y => max y zf) (congrArg₂ (· + ·) (h76 e) (kbias_row v77 _ _ (kr p n) e)))
      (kbias_row v83 _ _ (kr p n) e)
  · exact (bcast_11_r1 _ _ (kr p n) 0).trans (self_cast v89 _ 0 0)

theorem k99_apply (v93 : FVec Ideal S128x64 .f32) (n : Fin 64) (s : EReal) (h : v93 (ix2 p n) = s) :
    k99 v93 (ix2 p n) = Ideal.exp s * ind (Ideal.cmp .one s zf) := by
  show Ideal.exp (v93 (ix2 p n)) * ((((Ideal.cmp .one (v93 (ix2 p n)) zf).setWidth 32).toInt : ℝ) : EReal) = _
  rw [ind_signed, h]

theorem k103_apply (v99 : FVec Ideal S128x64 .f32) (SE : Fin 64 → EReal) (h : ∀ n, v99 (ix2 p n) = SE n) (n : Fin 64) :
    k103 v99 (ix2 p n) = Ideal.div (SE n) (∑ n' : Fin 64, SE n') := by
  unfold k103
  refine congrArg₂ Ideal.div (h n) ?_
  refine (broadcastTo_a1_ab_apply _ _ p n).trans ?_
  refine (shapeCast_a_a1_apply _ _ p 0).trans ?_
  refine (sum_cols (R := 128) (E := 64) v99 _ _ _ _ p).trans ?_
  exact Finset.sum_congr rfl fun n' _ => h n'

theorem k108_apply (v103 : FVec Ideal S128x64 .f32) (v52 : FVec Ideal S8192x128 .f32)
    (WG : Fin 64 → EReal) (h103 : ∀ n, v103 (ix2 p n) = WG n)
    (MV : Fin 64 → Fin 128 → EReal) (h52 : ∀ n k, v52 (ix2 (kr p n) k) = MV n k) (k : Fin 128) :
    k108 v103 v52 (ix2 p k) = ∑ n : Fin 64, WG n * MV n k := by
  unfold k108
  refine (sum_rows (A := 128) (B := 64) (C := 128) _ _ _ _ _ p k).trans ?_
  refine Finset.sum_congr rfl fun n _ => ?_
  exact congrArg₂ (· * ·)
    ((bcast_ab_abc (A := 128) (B := 64) (C := 128) v103 _ _ p n k).trans (h103 n))
    ((cast_rc_abc (A := 128) (B := 64) (C := 128) (R := 8192) (by norm_num) v52 _ p n k).trans (h52 n k))

/-- The last perceptron's first layer before its bias: the self features against the upper weight rows plus the pooled row
    against the lower ones. -/
theorem pay9_apply (v2 : FVec Ideal S128x9 .f32) (v52 : FVec Ideal S8192x128 .f32) (v76 : FVec Ideal S8192x64 .f32)
    (v77 v83 : FVec Ideal S1x64 .f32) (v89 : FVec Ideal S1x1 .f32) (v109 : FVec Ideal S9x256 .f32) (v112 : FVec Ideal S128x256 .f32)
    (S : Fin 9 → EReal) (hv2 : ∀ i, v2 (ix2 p i) = S i)
    (MV : Fin 64 → Fin 128 → EReal) (hv52 : ∀ n k, v52 (ix2 (kr p n) k) = MV n k)
    (Apre : Fin 64 → Fin 64 → EReal) (hv76 : ∀ n e, v76 (ix2 (kr p n) e) = Apre n e) (j : Fin 256) :
    k0_pay9 (F := Ideal) v2 v52 v76 v77 v83 v89 v109 v112 (ix2 p j)
      = (∑ i : Fin 9, S i * v109 (ix2 i j))
        + ∑ k : Fin 128,
            (∑ n : Fin 64,
              Ideal.div
                (Ideal.exp ((∑ e : Fin 64, max (Apre n e + v77 (ix2 (0 : Fin 1) e)) zf * v83 (ix2 (0 : Fin 1) e)) + v89 (ix2 (0 : Fin 1) (0 : Fin 1)))
                  * ind (Ideal.cmp .one ((∑ e : Fin 64, max (Apre n e + v77 (ix2 (0 : Fin 1) e)) zf * v83 (ix2 (0 : Fin 1) e)) + v89 (ix2 (0 : Fin 1) (0 : Fin 1))) zf))
                (∑ n' : Fin 64,
                  Ideal.exp ((∑ e : Fin 64, max (Apre n' e + v77 (ix2 (0 : Fin 1) e)) zf * v83 (ix2 (0 : Fin 1) e)) + v89 (ix2 (0 : Fin 1) (0 : Fin 1)))
                    * ind (Ideal.cmp .one ((∑ e : Fin 64, max (Apre n' e + v77 (ix2 (0 : Fin 1) e)) zf * v83 (ix2 (0 : Fin 1) e)) + v89 (ix2 (0 : Fin 1) (0 : Fin 1))) zf))
              * MV n k) * v112 (ix2 k j) := by
  rw [pay9_eq]
  refine congrArg₂ (· + ·) ?_ ?_
  · exact kmm_row dot_S128x9_S9x256_S128x256_1_0_0_1_n_n rfl rfl hl_s hr_s v2 _ p S hv2 _ (fun a b => self_cast v109 _ a b) j
  · refine kmm_row dot_S128x128_S128x256_S128x256_1_0_0_1_n_n rfl rfl hl_f hr_f _ _ p _ (fun k => ?_) _ (fun a b => self_cast v112 _ a b) j
    refine k108_apply p _ v52 _ (fun n => ?_) MV hv52 k
    refine k103_apply p _ _ (fun n => ?_) n
    exact k99_apply p _ n _ (k93_apply p v76 v77 v83 v89 n (Apre n) (hv76 n))

theorem pay10_apply (v116 : FVec Ideal S1x256 .f32) (j : Fin 256) : k0_pay10 (F := Ideal) v116 (ix2 p j) = v116 (ix2 (0 : Fin 1) j) := by
  unfold k0_pay10
  exact kbias_row v116 _ _ p j

/-- The last perceptron's second and third layers. -/
theorem pay1_apply (v115 v118 : FVec Ideal S128x256 .f32) (v122 : FVec Ideal S256x128 .f32) (v124 : FVec Ideal S1x128 .f32)
    (v130 : FVec Ideal S128x1 .f32) (v132 : FVec Ideal S1x1 .f32)
    (H : Fin 256 → EReal) (h115 : ∀ j, v115 (ix2 p j) = H j) (Bv : Fin 256 → EReal) (h118 : ∀ j, v118 (ix2 p j) = Bv j) (u : Fin 1) :
    k0_pay1 (F := Ideal) v115 v118 v122 v124 v130 v132 (ix2 p u)
      = layer (act zf (layer (act zf (fun j => H j + Bv j)) (fun a b => v122 (ix2 a b)) (fun j => v124 (ix2 (0 : Fin 1) j))))
          (fun a b => v130 (ix2 a b)) (fun j => v132 (ix2 (0 : Fin 1) j)) u := by
  unfold k0_pay1
  refine klayer_row dot_S128x128_S128x1_S128x1_1_0_0_1_n_n rfl rfl hl_v hr_v _ v130 p _ (fun k => ?_) _ (fun _ _ => rfl) v132 _ _ u
  exact klayer_relu_row dot_S128x256_S256x128_S128x128_1_0_0_1_n_n rfl rfl hl_h hr_h _ v122 p _
    (fun j => congrArg (fun y => max y zf) (congrArg₂ (· + ·) (h115 j) (h118 j))) _ (fun _ _ => rfl) v124 _ _ k

end Pool

/-! ## The body's result for table `p` of the block is the specification's value of that table -/

theorem kernel_value (x0 : FVec Ideal S128x64x64 .f32) (x1 : FVec Ideal S64x256 .bf16) (x2 : FVec Ideal S1x256 .f32)
    (x3 : FVec Ideal S256x128 .bf16) (x4 : FVec Ideal S1x128 .f32) (x5 : FVec Ideal S128x256 .bf16) (x6 : FVec Ideal S1x256 .f32)
    (x7 : FVec Ideal S256x128 .bf16) (x8 : FVec Ideal S1x128 .f32) (x9 x10 : FVec Ideal S128x128 .f32) (x11 : FVec Ideal S1x128 .f32)
    (x12 : FVec Ideal S128x64 .f32) (x13 x14 : FVec Ideal S1x64 .f32) (x15 : FVec Ideal S1x1 .f32) (x16 : FVec Ideal S9x256 .f32)
    (x17 : FVec Ideal S128x256 .f32) (x18 : FVec Ideal S1x256 .f32) (x19 : FVec Ideal S256x128 .f32) (x20 : FVec Ideal S1x128 .f32)
    (x21 : FVec Ideal S128x1 .f32) (x22 : FVec Ideal S1x1 .f32) (p : Fin 128) :
    k0_pay1 (F := Ideal)
        (k0_pay9 (F := Ideal) (k0_pay2 (F := Ideal) x0) (k0_pay7 (F := Ideal) (k0_pay3 (F := Ideal) x0) (k0_pay5 (F := Ideal) x0 x1 x2 x3 x4 x5 x6) x7 x8)
          (k0_pay8 (F := Ideal) (k0_pay3 (F := Ideal) x0) (k0_pay4 (F := Ideal) x0 x1 x2 x3 x4) x10 x9 x11 x12) x13 x14 x15 x16 x17)
        (k0_pay10 (F := Ideal) x18) x19 x20 x21 x22 (ix2 p (0 : Fin 1))
      = value (fun a b => x1 (ix2 a b)) (fun j => x2 (ix2 (0 : Fin 1) j)) (fun a b => x3 (ix2 a b)) (fun j => x4 (ix2 (0 : Fin 1) j))
          (fun a b => x5 (ix2 a b)) (fun j => x6 (ix2 (0 : Fin 1) j)) (fun a b => x7 (ix2 a b)) (fun j => x8 (ix2 (0 : Fin 1) j))
          (fun a b => x9 (ix2 a b)) (fun a b => x10 (ix2 a b)) (fun j => x11 (ix2 (0 : Fin 1) j))
          (fun a b => x12 (ix2 a b)) (fun j => x13 (ix2 (0 : Fin 1) j)) (fun e => x14 (ix2 (0 : Fin 1) e)) (x15 (ix2 (0 : Fin 1) (0 : Fin 1)))
          (fun a b => x16 (ix2 a b)) (fun a b => x17 (ix2 a b)) (fun j => x18 (ix2 (0 : Fin 1) j))
          (fun a b => x19 (ix2 a b)) (fun j => x20 (ix2 (0 : Fin 1) j)) (fun k => x21 (ix2 k (0 : Fin 1))) (x22 (ix2 (0 : Fin 1) (0 : Fin 1)))
          (fun n d => x0 (ix3 p n d)) := by
  refine (pay1_apply p _ _ x19 x20 x21 x22 _
    (fun j => pay9_apply p _ _ _ x13 x14 x15 x16 x17 _ (fun i => pay2_apply p x0 i)
      _ (fun n k => pay7_apply p _ _ x7 x8 n _ (pay3_apply p x0 n) _ (fun j => pay5_apply p x0 x1 x2 x3 x4 x5 x6 n j) k)
      _ (fun n e => pay8_apply p _ _ x10 x9 x11 x12 _ (fun n => pay3_apply p x0 n) _ (fun n k => pay4_apply p x0 x1 x2 x3 x4 n k) n e) j)
    _ (fun j => pay10_apply p x18 j) 0).trans ?_
  rfl

end Cert.KernelNet

end
-- ==== Proof.KernelArray.lean ====
/-
  THE KERNEL'S RESULT ARRAY is the specification's `G` of the argument arrays.

  The grid has 32 points; point `t` works on tables `128 t … 128 t + 127`: its block of the state is those tables, every
  weight window is the whole of its array at every point, and it writes back rows `128 t … 128 t + 127` of the result.
  The weight arrays the region finds were written by the host before it: a change of float format (the identity at the
  ideal values), the upper or lower rows of a weight, a transposed one-column weight, a bias laid out as one row.  So each
  window's block, read at an index, is an entry of an argument array; the body's result for table `p` of the block
  (`KernelNet.kernel_value`) is then `G` at row `128 t + p`, the blocks written back cover the result array, and the array
  ends holding `G`.
-/
import proofs.«141150_j57114475102901_2_alg».proof.Proof.Gen.KernelIdeal.Value
import proofs.«141150_j57114475102901_2_alg».proof.Proof.KernelRows
import Idealize.ShloMosaic.Lib.StableHlo.Run

noncomputable section

open scoped BigOperators

namespace Cert.KernelArr

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.Net Cert.KernelNet

variable (m : (ℓ : Loc nD τ sig) → Buf (Elt Ideal) ℓ) (ρ : Dev nD → PrngReg)

/-! ## The arrays the host wrote before the region -/

theorem V_main_v0 (c : Dev nD) :
    V m c main_v0 = (truncf (F := Ideal) .bf16 ((m ((c : Thread nD τ).loc main_arg1)) : FVec Ideal S64x256 .f32) bitsLt_bf16_f32 : FVec Ideal S64x256 .bf16) := by
  dsimp only [V, hostOps0]; after_results <;> rfl

theorem V_main_v1 (c : Dev nD) :
    V m c main_v1 = (truncf (F := Ideal) .bf16 ((m ((c : Thread nD τ).loc main_arg3)) : FVec Ideal S256x128 .f32) bitsLt_bf16_f32 : FVec Ideal S256x128 .bf16) := by
  dsimp only [V, hostOps0]; after_results <;> rfl

theorem V_main_v2 (c : Dev nD) :
    V m c main_v2 = (truncf (F := Ideal) .bf16 ((m ((c : Thread nD τ).loc main_arg5)) : FVec Ideal S128x256 .f32) bitsLt_bf16_f32 : FVec Ideal S128x256 .bf16) := by
  dsimp only [V, hostOps0]; after_results <;> rfl

theorem V_main_v3 (c : Dev nD) :
    V m c main_v3 = (truncf (F := Ideal) .bf16 ((m ((c : Thread nD τ).loc main_arg7)) : FVec Ideal S256x128 .f32) bitsLt_bf16_f32 : FVec Ideal S256x128 .bf16) := by
  dsimp only [V, hostOps0]; after_results <;> rfl

theorem V_main_v4 (c : Dev nD) : (V m c main_v4 : S128x128.Idx → EReal) = extractStridedSlice S128x128 ![0, 0] (m ((c : Thread nD τ).loc main_arg9)) slices_S256x128_S128x128_0_0 := by
  dsimp only [V, hostOps0]; after_results <;> rfl

theorem V_main_v5 (c : Dev nD) : (V m c main_v5 : S128x128.Idx → EReal) = extractStridedSlice S128x128 ![128, 0] (m ((c : Thread nD τ).loc main_arg9)) slices_S256x128_S128x128_128_0 := by
  dsimp only [V, hostOps0]; after_results <;> rfl

theorem V_main_v6 (c : Dev nD) : (V m c main_v6 : S1x64.Idx → EReal) = transpose S1x64 [1, 0] (m ((c : Thread nD τ).loc main_arg13)) transposes_S64x1_S1x64_1_0 := by
  dsimp only [V, hostOps0]; after_results <;> rfl

theorem V_main_v7 (c : Dev nD) : (V m c main_v7 : S9x256.Idx → EReal) = extractStridedSlice S9x256 ![0, 0] (m ((c : Thread nD τ).loc main_arg15)) slices_S137x256_S9x256_0_0 := by
  dsimp only [V, hostOps0]; after_results <;> rfl

theorem V_main_v8 (c : Dev nD) : (V m c main_v8 : S128x256.Idx → EReal) = extractStridedSlice S128x256 ![9, 0] (m ((c : Thread nD τ).loc main_arg15)) slices_S137x256_S128x256_9_0 := by
  dsimp only [V, hostOps0]; after_results <;> rfl

theorem V_main_v9 (c : Dev nD) : (V m c main_v9 : S1x256.Idx → EReal) = shapeCast S1x256 (m ((c : Thread nD τ).loc main_arg2)) shapeCasts_S256_S1x256 := by
  dsimp only [V, hostOps0]; after_results <;> rfl

theorem V_main_v10 (c : Dev nD) : (V m c main_v10 : S1x128.Idx → EReal) = shapeCast S1x128 (m ((c : Thread nD τ).loc main_arg4)) shapeCasts_S128_S1x128 := by
  dsimp only [V, hostOps0]; after_results <;> rfl

theorem V_main_v11 (c : Dev nD) : (V m c main_v11 : S1x256.Idx → EReal) = shapeCast S1x256 (m ((c : Thread nD τ).loc main_arg6)) shapeCasts_S256_S1x256 := by
  dsimp only [V, hostOps0]; after_results <;> rfl

theorem V_main_v12 (c : Dev nD) : (V m c main_v12 : S1x128.Idx → EReal) = shapeCast S1x128 (m ((c : Thread nD τ).loc main_arg8)) shapeCasts_S128_S1x128 := by
  dsimp only [V, hostOps0]; after_results <;> rfl

theorem V_main_v13 (c : Dev nD) : (V m c main_v13 : S1x128.Idx → EReal) = shapeCast S1x128 (m ((c : Thread nD τ).loc main_arg10)) shapeCasts_S128_S1x128 := by
  dsimp only [V, hostOps0]; after_results <;> rfl

theorem V_main_v14 (c : Dev nD) : (V m c main_v14 : S1x64.Idx → EReal) = shapeCast S1x64 (m ((c : Thread nD τ).loc main_arg12)) shapeCasts_S64_S1x64 := by
  dsimp only [V, hostOps0]; after_results <;> rfl

theorem V_main_v15 (c : Dev nD) : (V m c main_v15 : S1x1.Idx → EReal) = shapeCast S1x1 (m ((c : Thread nD τ).loc main_arg14)) shapeCasts_S1_S1x1 := by
  dsimp only [V, hostOps0]; after_results <;> rfl

theorem V_main_v16 (c : Dev nD) : (V m c main_v16 : S1x256.Idx → EReal) = shapeCast S1x256 (m ((c : Thread nD τ).loc main_arg16)) shapeCasts_S256_S1x256 := by
  dsimp only [V, hostOps0]; after_results <;> rfl

theorem V_main_v17 (c : Dev nD) : (V m c main_v17 : S1x128.Idx → EReal) = shapeCast S1x128 (m ((c : Thread nD τ).loc main_arg18)) shapeCasts_S128_S1x128 := by
  dsimp only [V, hostOps0]; after_results <;> rfl

theorem V_main_v18 (c : Dev nD) : (V m c main_v18 : S1x1.Idx → EReal) = shapeCast S1x1 (m ((c : Thread nD τ).loc main_arg20)) shapeCasts_S1_S1x1 := by
  dsimp only [V, hostOps0]; after_results <;> rfl

/-! ## A weight window's block is the whole of its array, at every point -/

theorem blk1 (c : Dev nD) (t : Fin cfg0.N) (y : S64x256.Idx) :
    (iblk m c 1 t : FVec Ideal S64x256 .bf16) y = (V m c main_v0 : S64x256.Idx → EReal) y := by
  have hi := (by decide +kernel : ∀ t : Fin grid0.N, win0_1.index t 0 = 0 ∧ win0_1.index t 1 = 0) t
  unfold iblk
  rw [View.read_apply]
  show V m c main_v0 _ = V m c main_v0 _
  congr 1
  funext a
  apply Fin.ext
  match a with
  | ⟨0, _⟩ => show win0_1.index t 0 * 64 + 1 * (y 0).val = (y 0).val; rw [hi.1]; omega
  | ⟨1, _⟩ => show win0_1.index t 1 * 256 + 1 * (y 1).val = (y 1).val; rw [hi.2]; omega

theorem blk2 (c : Dev nD) (t : Fin cfg0.N) (y : S1x256.Idx) :
    (iblk m c 2 t : FVec Ideal S1x256 .f32) y = (V m c main_v9 : S1x256.Idx → EReal) y := by
  have hi := (by decide +kernel : ∀ t : Fin grid0.N, win0_2.index t 0 = 0 ∧ win0_2.index t 1 = 0) t
  unfold iblk
  rw [View.read_apply]
  show V m c main_v9 _ = V m c main_v9 _
  congr 1
  funext a
  apply Fin.ext
  match a with
  | ⟨0, _⟩ => show win0_2.index t 0 * 1 + 1 * (y 0).val = (y 0).val; rw [hi.1]; omega
  | ⟨1, _⟩ => show win0_2.index t 1 * 256 + 1 * (y 1).val = (y 1).val; rw [hi.2]; omega

theorem blk3 (c : Dev nD) (t : Fin cfg0.N) (y : S256x128.Idx) :
    (iblk m c 3 t : FVec Ideal S256x128 .bf16) y = (V m c main_v1 : S256x128.Idx → EReal) y := by
  have hi := (by decide +kernel : ∀ t : Fin grid0.N, win0_3.index t 0 = 0 ∧ win0_3.index t 1 = 0) t
  unfold iblk
  rw [View.read_apply]
  show V m c main_v1 _ = V m c main_v1 _
  congr 1
  funext a
  apply Fin.ext
  match a with
  | ⟨0, _⟩ => show win0_3.index t 0 * 256 + 1 * (y 0).val = (y 0).val; rw [hi.1]; omega
  | ⟨1, _⟩ => show win0_3.index t 1 * 128 + 1 * (y 1).val = (y 1).val; rw [hi.2]; omega

theorem blk4 (c : Dev nD) (t : Fin cfg0.N) (y : S1x128.Idx) :
    (iblk m c 4 t : FVec Ideal S1x128 .f32) y = (V m c main_v10 : S1x128.Idx → EReal) y := by
  have hi := (by decide +kernel : ∀ t : Fin grid0.N, win0_4.index t 0 = 0 ∧ win0_4.index t 1 = 0) t
  unfold iblk
  rw [View.read_apply]
  show V m c main_v10 _ = V m c main_v10 _
  congr 1
  funext a
  apply Fin.ext
  match a with
  | ⟨0, _⟩ => show win0_4.index t 0 * 1 + 1 * (y 0).val = (y 0).val; rw [hi.1]; omega
  | ⟨1, _⟩ => show win0_4.index t 1 * 128 + 1 * (y 1).val = (y 1).val; rw [hi.2]; omega

theorem blk5 (c : Dev nD) (t : Fin cfg0.N) (y : S128x256.Idx) :
    (iblk m c 5 t : FVec Ideal S128x256 .bf16) y = (V m c main_v2 : S128x256.Idx → EReal) y := by
  have hi := (by decide +kernel : ∀ t : Fin grid0.N, win0_5.index t 0 = 0 ∧ win0_5.index t 1 = 0) t
  unfold iblk
  rw [View.read_apply]
  show V m c main_v2 _ = V m c main_v2 _
  congr 1
  funext a
  apply Fin.ext
  match a with
  | ⟨0, _⟩ => show win0_5.index t 0 * 128 + 1 * (y 0).val = (y 0).val; rw [hi.1]; omega
  | ⟨1, _⟩ => show win0_5.index t 1 * 256 + 1 * (y 1).val = (y 1).val; rw [hi.2]; omega

theorem blk6 (c : Dev nD) (t : Fin cfg0.N) (y : S1x256.Idx) :
    (iblk m c 6 t : FVec Ideal S1x256 .f32) y = (V m c main_v11 : S1x256.Idx → EReal) y := by
  have hi := (by decide +kernel : ∀ t : Fin grid0.N, win0_6.index t 0 = 0 ∧ win0_6.index t 1 = 0) t
  unfold iblk
  rw [View.read_apply]
  show V m c main_v11 _ = V m c main_v11 _
  congr 1
  funext a
  apply Fin.ext
  match a with
  | ⟨0, _⟩ => show win0_6.index t 0 * 1 + 1 * (y 0).val = (y 0).val; rw [hi.1]; omega
  | ⟨1, _⟩ => show win0_6.index t 1 * 256 + 1 * (y 1).val = (y 1).val; rw [hi.2]; omega

theorem blk7 (c : Dev nD) (t : Fin cfg0.N) (y : S256x128.Idx) :
    (iblk m c 7 t : FVec Ideal S256x128 .bf16) y = (V m c main_v3 : S256x128.Idx → EReal) y := by
  have hi := (by decide +kernel : ∀ t : Fin grid0.N, win0_7.index t 0 = 0 ∧ win0_7.index t 1 = 0) t
  unfold iblk
  rw [View.read_apply]
  show V m c main_v3 _ = V m c main_v3 _
  congr 1
  funext a
  apply Fin.ext
  match a with
  | ⟨0, _⟩ => show win0_7.index t 0 * 256 + 1 * (y 0).val = (y 0).val; rw [hi.1]; omega
  | ⟨1, _⟩ => show win0_7.index t 1 * 128 + 1 * (y 1).val = (y 1).val; rw [hi.2]; omega

theorem blk8 (c : Dev nD) (t : Fin cfg0.N) (y : S1x128.Idx) :
    (iblk m c 8 t : FVec Ideal S1x128 .f32) y = (V m c main_v12 : S1x128.Idx → EReal) y := by
  have hi := (by decide +kernel : ∀ t : Fin grid0.N, win0_8.index t 0 = 0 ∧ win0_8.index t 1 = 0) t
  unfold iblk
  rw [View.read_apply]
  show V m c main_v12 _ = V m c main_v12 _
  congr 1
  funext a
  apply Fin.ext
  match a with
  | ⟨0, _⟩ => show win0_8.index t 0 * 1 + 1 * (y 0).val = (y 0).val; rw [hi.1]; omega
  | ⟨1, _⟩ => show win0_8.index t 1 * 128 + 1 * (y 1).val = (y 1).val; rw [hi.2]; omega

theorem blk9 (c : Dev nD) (t : Fin cfg0.N) (y : S128x128.Idx) :
    (iblk m c 9 t : FVec Ideal S128x128 .f32) y = (V m c main_v4 : S128x128.Idx → EReal) y := by
  have hi := (by decide +kernel : ∀ t : Fin grid0.N, win0_9.index t 0 = 0 ∧ win0_9.index t 1 = 0) t
  unfold iblk
  rw [View.read_apply]
  show V m c main_v4 _ = V m c main_v4 _
  congr 1
  funext a
  apply Fin.ext
  match a with
  | ⟨0, _⟩ => show win0_9.index t 0 * 128 + 1 * (y 0).val = (y 0).val; rw [hi.1]; omega
  | ⟨1, _⟩ => show win0_9.index t 1 * 128 + 1 * (y 1).val = (y 1).val; rw [hi.2]; omega

theorem blk10 (c : Dev nD) (t : Fin cfg0.N) (y : S128x128.Idx) :
    (iblk m c 10 t : FVec Ideal S128x128 .f32) y = (V m c main_v5 : S128x128.Idx → EReal) y := by
  have hi := (by decide +kernel : ∀ t : Fin grid0.N, win0_10.index t 0 = 0 ∧ win0_10.index t 1 = 0) t
  unfold iblk
  rw [View.read_apply]
  show V m c main_v5 _ = V m c main_v5 _
  congr 1
  funext a
  apply Fin.ext
  match a with
  | ⟨0, _⟩ => show win0_10.index t 0 * 128 + 1 * (y 0).val = (y 0).val; rw [hi.1]; omega
  | ⟨1, _⟩ => show win0_10.index t 1 * 128 + 1 * (y 1).val = (y 1).val; rw [hi.2]; omega

theorem blk11 (c : Dev nD) (t : Fin cfg0.N) (y : S1x128.Idx) :
    (iblk m c 11 t : FVec Ideal S1x128 .f32) y = (V m c main_v13 : S1x128.Idx → EReal) y := by
  have hi := (by decide +kernel : ∀ t : Fin grid0.N, win0_11.index t 0 = 0 ∧ win0_11.index t 1 = 0) t
  unfold iblk
  rw [View.read_apply]
  show V m c main_v13 _ = V m c main_v13 _
  congr 1
  funext a
  apply Fin.ext
  match a with
  | ⟨0, _⟩ => show win0_11.index t 0 * 1 + 1 * (y 0).val = (y 0).val; rw [hi.1]; omega
  | ⟨1, _⟩ => show win0_11.index t 1 * 128 + 1 * (y 1).val = (y 1).val; rw [hi.2]; omega

theorem blk12 (c : Dev nD) (t : Fin cfg0.N) (y : S128x64.Idx) :
    (iblk m c 12 t : FVec Ideal S128x64 .f32) y = (V m c main_arg11 : S128x64.Idx → EReal) y := by
  have hi := (by decide +kernel : ∀ t : Fin grid0.N, win0_12.index t 0 = 0 ∧ win0_12.index t 1 = 0) t
  unfold iblk
  rw [View.read_apply]
  show V m c main_arg11 _ = V m c main_arg11 _
  congr 1
  funext a
  apply Fin.ext
  match a with
  | ⟨0, _⟩ => show win0_12.index t 0 * 128 + 1 * (y 0).val = (y 0).val; rw [hi.1]; omega
  | ⟨1, _⟩ => show win0_12.index t 1 * 64 + 1 * (y 1).val = (y 1).val; rw [hi.2]; omega

theorem blk13 (c : Dev nD) (t : Fin cfg0.N) (y : S1x64.Idx) :
    (iblk m c 13 t : FVec Ideal S1x64 .f32) y = (V m c main_v14 : S1x64.Idx → EReal) y := by
  have hi := (by decide +kernel : ∀ t : Fin grid0.N, win0_13.index t 0 = 0 ∧ win0_13.index t 1 = 0) t
  unfold iblk
  rw [View.read_apply]
  show V m c main_v14 _ = V m c main_v14 _
  congr 1
  funext a
  apply Fin.ext
  match a with
  | ⟨0, _⟩ => show win0_13.index t 0 * 1 + 1 * (y 0).val = (y 0).val; rw [hi.1]; omega
  | ⟨1, _⟩ => show win0_13.index t 1 * 64 + 1 * (y 1).val = (y 1).val; rw [hi.2]; omega

theorem blk14 (c : Dev nD) (t : Fin cfg0.N) (y : S1x64.Idx) :
    (iblk m c 14 t : FVec Ideal S1x64 .f32) y = (V m c main_v6 : S1x64.Idx → EReal) y := by
  have hi := (by decide +kernel : ∀ t : Fin grid0.N, win0_14.index t 0 = 0 ∧ win0_14.index t 1 = 0) t
  unfold iblk
  rw [View.read_apply]
  show V m c main_v6 _ = V m c main_v6 _
  congr 1
  funext a
  apply Fin.ext
  match a with
  | ⟨0, _⟩ => show win0_14.index t 0 * 1 + 1 * (y 0).val = (y 0).val; rw [hi.1]; omega
  | ⟨1, _⟩ => show win0_14.index t 1 * 64 + 1 * (y 1).val = (y 1).val; rw [hi.2]; omega

theorem blk15 (c : Dev nD) (t : Fin cfg0.N) (y : S1x1.Idx) :
    (iblk m c 15 t : FVec Ideal S1x1 .f32) y = (V m c main_v15 : S1x1.Idx → EReal) y := by
  have hi := (by decide +kernel : ∀ t : Fin grid0.N, win0_15.index t 0 = 0 ∧ win0_15.index t 1 = 0) t
  unfold iblk
  rw [View.read_apply]
  show V m c main_v15 _ = V m c main_v15 _
  congr 1
  funext a
  apply Fin.ext
  match a with
  | ⟨0, _⟩ => show win0_15.index t 0 * 1 + 1 * (y 0).val = (y 0).val; rw [hi.1]; omega
  | ⟨1, _⟩ => show win0_15.index t 1 * 1 + 1 * (y 1).val = (y 1).val; rw [hi.2]; omega

theorem blk16 (c : Dev nD) (t : Fin cfg0.N) (y : S9x256.Idx) :
    (iblk m c 16 t : FVec Ideal S9x256 .f32) y = (V m c main_v7 : S9x256.Idx → EReal) y := by
  have hi := (by decide +kernel : ∀ t : Fin grid0.N, win0_16.index t 0 = 0 ∧ win0_16.index t 1 = 0) t
  unfold iblk
  rw [View.read_apply]
  show V m c main_v7 _ = V m c main_v7 _
  congr 1
  funext a
  apply Fin.ext
  match a with
  | ⟨0, _⟩ => show win0_16.index t 0 * 9 + 1 * (y 0).val = (y 0).val; rw [hi.1]; omega
  | ⟨1, _⟩ => show win0_16.index t 1 * 256 + 1 * (y 1).val = (y 1).val; rw [hi.2]; omega

theorem blk17 (c : Dev nD) (t : Fin cfg0.N) (y : S128x256.Idx) :
    (iblk m c 17 t : FVec Ideal S128x256 .f32) y = (V m c main_v8 : S128x256.Idx → EReal) y := by
  have hi := (by decide +kernel : ∀ t : Fin grid0.N, win0_17.index t 0 = 0 ∧ win0_17.index t 1 = 0) t
  unfold iblk
  rw [View.read_apply]
  show V m c main_v8 _ = V m c main_v8 _
  congr 1
  funext a
  apply Fin.ext
  match a with
  | ⟨0, _⟩ => show win0_17.index t 0 * 128 + 1 * (y 0).val = (y 0).val; rw [hi.1]; omega
  | ⟨1, _⟩ => show win0_17.index t 1 * 256 + 1 * (y 1).val = (y 1).val; rw [hi.2]; omega

theorem blk18 (c : Dev nD) (t : Fin cfg0.N) (y : S1x256.Idx) :
    (iblk m c 18 t : FVec Ideal S1x256 .f32) y = (V m c main_v16 : S1x256.Idx → EReal) y := by
  have hi := (by decide +kernel : ∀ t : Fin grid0.N, win0_18.index t 0 = 0 ∧ win0_18.index t 1 = 0) t
  unfold iblk
  rw [View.read_apply]
  show V m c main_v16 _ = V m c main_v16 _
  congr 1
  funext a
  apply Fin.ext
  match a with
  | ⟨0, _⟩ => show win0_18.index t 0 * 1 + 1 * (y 0).val = (y 0).val; rw [hi.1]; omega
  | ⟨1, _⟩ => show win0_18.index t 1 * 256 + 1 * (y 1).val = (y 1).val; rw [hi.2]; omega

theorem blk19 (c : Dev nD) (t : Fin cfg0.N) (y : S256x128.Idx) :
    (iblk m c 19 t : FVec Ideal S256x128 .f32) y = (V m c main_arg17 : S256x128.Idx → EReal) y := by
  have hi := (by decide +kernel : ∀ t : Fin grid0.N, win0_19.index t 0 = 0 ∧ win0_19.index t 1 = 0) t
  unfold iblk
  rw [View.read_apply]
  show V m c main_arg17 _ = V m c main_arg17 _
  congr 1
  funext a
  apply Fin.ext
  match a with
  | ⟨0, _⟩ => show win0_19.index t 0 * 256 + 1 * (y 0).val = (y 0).val; rw [hi.1]; omega
  | ⟨1, _⟩ => show win0_19.index t 1 * 128 + 1 * (y 1).val = (y 1).val; rw [hi.2]; omega

theorem blk20 (c : Dev nD) (t : Fin cfg0.N) (y : S1x128.Idx) :
    (iblk m c 20 t : FVec Ideal S1x128 .f32) y = (V m c main_v17 : S1x128.Idx → EReal) y := by
  have hi := (by decide +kernel : ∀ t : Fin grid0.N, win0_20.index t 0 = 0 ∧ win0_20.index t 1 = 0) t
  unfold iblk
  rw [View.read_apply]
  show V m c main_v17 _ = V m c main_v17 _
  congr 1
  funext a
  apply Fin.ext
  match a with
  | ⟨0, _⟩ => show win0_20.index t 0 * 1 + 1 * (y 0).val = (y 0).val; rw [hi.1]; omega
  | ⟨1, _⟩ => show win0_20.index t 1 * 128 + 1 * (y 1).val = (y 1).val; rw [hi.2]; omega

theorem blk21 (c : Dev nD) (t : Fin cfg0.N) (y : S128x1.Idx) :
    (iblk m c 21 t : FVec Ideal S128x1 .f32) y = (V m c main_arg19 : S128x1.Idx → EReal) y := by
  have hi := (by decide +kernel : ∀ t : Fin grid0.N, win0_21.index t 0 = 0 ∧ win0_21.index t 1 = 0) t
  unfold iblk
  rw [View.read_apply]
  show V m c main_arg19 _ = V m c main_arg19 _
  congr 1
  funext a
  apply Fin.ext
  match a with
  | ⟨0, _⟩ => show win0_21.index t 0 * 128 + 1 * (y 0).val = (y 0).val; rw [hi.1]; omega
  | ⟨1, _⟩ => show win0_21.index t 1 * 1 + 1 * (y 1).val = (y 1).val; rw [hi.2]; omega

theorem blk22 (c : Dev nD) (t : Fin cfg0.N) (y : S1x1.Idx) :
    (iblk m c 22 t : FVec Ideal S1x1 .f32) y = (V m c main_v18 : S1x1.Idx → EReal) y := by
  have hi := (by decide +kernel : ∀ t : Fin grid0.N, win0_22.index t 0 = 0 ∧ win0_22.index t 1 = 0) t
  unfold iblk
  rw [View.read_apply]
  show V m c main_v18 _ = V m c main_v18 _
  congr 1
  funext a
  apply Fin.ext
  match a with
  | ⟨0, _⟩ => show win0_22.index t 0 * 1 + 1 * (y 0).val = (y 0).val; rw [hi.1]; omega
  | ⟨1, _⟩ => show win0_22.index t 1 * 1 + 1 * (y 1).val = (y 1).val; rw [hi.2]; omega

/-! ## Each window's block at an index is an entry of an argument array -/

theorem par2 (c : Dev nD) (t : Fin cfg0.N) (j : Fin 256) :
    (iblk m c 2 t : FVec Ideal S1x256 .f32) (ix2 (0 : Fin 1) j) = (m ((c : Thread nD τ).loc main_arg2)) (ix1 j) :=
  (blk2 m c t _).trans ((congrFun (V_main_v9 m c) _).trans (shapeCast_a_1a_apply (m ((c : Thread nD τ).loc main_arg2)) _ 0 j))

theorem par4 (c : Dev nD) (t : Fin cfg0.N) (j : Fin 128) :
    (iblk m c 4 t : FVec Ideal S1x128 .f32) (ix2 (0 : Fin 1) j) = (m ((c : Thread nD τ).loc main_arg4)) (ix1 j) :=
  (blk4 m c t _).trans ((congrFun (V_main_v10 m c) _).trans (shapeCast_a_1a_apply (m ((c : Thread nD τ).loc main_arg4)) _ 0 j))

theorem par6 (c : Dev nD) (t : Fin cfg0.N) (j : Fin 256) :
    (iblk m c 6 t : FVec Ideal S1x256 .f32) (ix2 (0 : Fin 1) j) = (m ((c : Thread nD τ).loc main_arg6)) (ix1 j) :=
  (blk6 m c t _).trans ((congrFun (V_main_v11 m c) _).trans (shapeCast_a_1a_apply (m ((c : Thread nD τ).loc main_arg6)) _ 0 j))

theorem par8 (c : Dev nD) (t : Fin cfg0.N) (j : Fin 128) :
    (iblk m c 8 t : FVec Ideal S1x128 .f32) (ix2 (0 : Fin 1) j) = (m ((c : Thread nD τ).loc main_arg8)) (ix1 j) :=
  (blk8 m c t _).trans ((congrFun (V_main_v12 m c) _).trans (shapeCast_a_1a_apply (m ((c : Thread nD τ).loc main_arg8)) _ 0 j))

theorem par11 (c : Dev nD) (t : Fin cfg0.N) (j : Fin 128) :
    (iblk m c 11 t : FVec Ideal S1x128 .f32) (ix2 (0 : Fin 1) j) = (m ((c : Thread nD τ).loc main_arg10)) (ix1 j) :=
  (blk11 m c t _).trans ((congrFun (V_main_v13 m c) _).trans (shapeCast_a_1a_apply (m ((c : Thread nD τ).loc main_arg10)) _ 0 j))

theorem par13 (c : Dev nD) (t : Fin cfg0.N) (j : Fin 64) :
    (iblk m c 13 t : FVec Ideal S1x64 .f32) (ix2 (0 : Fin 1) j) = (m ((c : Thread nD τ).loc main_arg12)) (ix1 j) :=
  (blk13 m c t _).trans ((congrFun (V_main_v14 m c) _).trans (shapeCast_a_1a_apply (m ((c : Thread nD τ).loc main_arg12)) _ 0 j))

theorem par18 (c : Dev nD) (t : Fin cfg0.N) (j : Fin 256) :
    (iblk m c 18 t : FVec Ideal S1x256 .f32) (ix2 (0 : Fin 1) j) = (m ((c : Thread nD τ).loc main_arg16)) (ix1 j) :=
  (blk18 m c t _).trans ((congrFun (V_main_v16 m c) _).trans (shapeCast_a_1a_apply (m ((c : Thread nD τ).loc main_arg16)) _ 0 j))

theorem par20 (c : Dev nD) (t : Fin cfg0.N) (j : Fin 128) :
    (iblk m c 20 t : FVec Ideal S1x128 .f32) (ix2 (0 : Fin 1) j) = (m ((c : Thread nD τ).loc main_arg18)) (ix1 j) :=
  (blk20 m c t _).trans ((congrFun (V_main_v17 m c) _).trans (shapeCast_a_1a_apply (m ((c : Thread nD τ).loc main_arg18)) _ 0 j))

theorem par1 (c : Dev nD) (t : Fin cfg0.N) (a : Fin 64) (b : Fin 256) :
    (iblk m c 1 t : FVec Ideal S64x256 .bf16) (ix2 a b) = (m ((c : Thread nD τ).loc main_arg1)) (ix2 a b) :=
  (blk1 m c t _).trans (congrFun (V_main_v0 m c) _)

theorem par3 (c : Dev nD) (t : Fin cfg0.N) (a : Fin 256) (b : Fin 128) :
    (iblk m c 3 t : FVec Ideal S256x128 .bf16) (ix2 a b) = (m ((c : Thread nD τ).loc main_arg3)) (ix2 a b) :=
  (blk3 m c t _).trans (congrFun (V_main_v1 m c) _)

theorem par5 (c : Dev nD) (t : Fin cfg0.N) (a : Fin 128) (b : Fin 256) :
    (iblk m c 5 t : FVec Ideal S128x256 .bf16) (ix2 a b) = (m ((c : Thread nD τ).loc main_arg5)) (ix2 a b) :=
  (blk5 m c t _).trans (congrFun (V_main_v2 m c) _)

theorem par7 (c : Dev nD) (t : Fin cfg0.N) (a : Fin 256) (b : Fin 128) :
    (iblk m c 7 t : FVec Ideal S256x128 .bf16) (ix2 a b) = (m ((c : Thread nD τ).loc main_arg7)) (ix2 a b) :=
  (blk7 m c t _).trans (congrFun (V_main_v3 m c) _)

theorem par12 (c : Dev nD) (t : Fin cfg0.N) (a : Fin 128) (b : Fin 64) :
    (iblk m c 12 t : FVec Ideal S128x64 .f32) (ix2 a b) = (m ((c : Thread nD τ).loc main_arg11)) (ix2 a b) :=
  (blk12 m c t _).trans (congrFun (V_main_arg11 m c) _)

theorem par19 (c : Dev nD) (t : Fin cfg0.N) (a : Fin 256) (b : Fin 128) :
    (iblk m c 19 t : FVec Ideal S256x128 .f32) (ix2 a b) = (m ((c : Thread nD τ).loc main_arg17)) (ix2 a b) :=
  (blk19 m c t _).trans (congrFun (V_main_arg17 m c) _)

theorem par21 (c : Dev nD) (t : Fin cfg0.N) (a : Fin 128) (b : Fin 1) :
    (iblk m c 21 t : FVec Ideal S128x1 .f32) (ix2 a b) = (m ((c : Thread nD τ).loc main_arg19)) (ix2 a b) :=
  (blk21 m c t _).trans (congrFun (V_main_arg19 m c) _)

theorem par9 (c : Dev nD) (t : Fin cfg0.N) (a : Fin 128) (b : Fin 128) :
    (iblk m c 9 t : FVec Ideal S128x128 .f32) (ix2 a b) = (m ((c : Thread nD τ).loc main_arg9)) (ix2 (⟨a.val, by have := a.isLt; omega⟩ : Fin 256) b) :=
  (blk9 m c t _).trans ((congrFun (V_main_v4 m c) _).trans
    (slice2_axis0_apply 0 (m ((c : Thread nD τ).loc main_arg9)) _ a b _ (by show a.val = 0 + a.val; omega)))

theorem par10 (c : Dev nD) (t : Fin cfg0.N) (a : Fin 128) (b : Fin 128) :
    (iblk m c 10 t : FVec Ideal S128x128 .f32) (ix2 a b) = (m ((c : Thread nD τ).loc main_arg9)) (ix2 (⟨128 + a.val, by have := a.isLt; omega⟩ : Fin 256) b) :=
  (blk10 m c t _).trans ((congrFun (V_main_v5 m c) _).trans
    (slice2_axis0_apply 128 (m ((c : Thread nD τ).loc main_arg9)) _ a b _ (by show 128 + a.val = 128 + a.val; omega)))

theorem par16 (c : Dev nD) (t : Fin cfg0.N) (a : Fin 9) (b : Fin 256) :
    (iblk m c 16 t : FVec Ideal S9x256 .f32) (ix2 a b) = (m ((c : Thread nD τ).loc main_arg15)) (ix2 (⟨a.val, by have := a.isLt; omega⟩ : Fin 137) b) :=
  (blk16 m c t _).trans ((congrFun (V_main_v7 m c) _).trans
    (slice2_axis0_apply 0 (m ((c : Thread nD τ).loc main_arg15)) _ a b _ (by show a.val = 0 + a.val; omega)))

theorem par17 (c : Dev nD) (t : Fin cfg0.N) (a : Fin 128) (b : Fin 256) :
    (iblk m c 17 t : FVec Ideal S128x256 .f32) (ix2 a b) = (m ((c : Thread nD τ).loc main_arg15)) (ix2 (⟨9 + a.val, by have := a.isLt; omega⟩ : Fin 137) b) :=
  (blk17 m c t _).trans ((congrFun (V_main_v8 m c) _).trans
    (slice2_axis0_apply 9 (m ((c : Thread nD τ).loc main_arg15)) _ a b _ (by show 9 + a.val = 9 + a.val; omega)))

theorem par14 (c : Dev nD) (t : Fin cfg0.N) (e : Fin 64) :
    (iblk m c 14 t : FVec Ideal S1x64 .f32) (ix2 (0 : Fin 1) e) = (m ((c : Thread nD τ).loc main_arg13)) (ix2 e (0 : Fin 1)) :=
  (blk14 m c t _).trans ((congrFun (V_main_v6 m c) _).trans (transpose_ix2_apply (m ((c : Thread nD τ).loc main_arg13)) _ 0 e))

theorem par15 (c : Dev nD) (t : Fin cfg0.N) :
    (iblk m c 15 t : FVec Ideal S1x1 .f32) (ix2 (0 : Fin 1) (0 : Fin 1)) = (m ((c : Thread nD τ).loc main_arg14)) (ix1 (0 : Fin 1)) :=
  (blk15 m c t _).trans ((congrFun (V_main_v15 m c) _).trans (shapeCast_a_1a_apply (m ((c : Thread nD τ).loc main_arg14)) _ 0 0))

theorem par22 (c : Dev nD) (t : Fin cfg0.N) :
    (iblk m c 22 t : FVec Ideal S1x1 .f32) (ix2 (0 : Fin 1) (0 : Fin 1)) = (m ((c : Thread nD τ).loc main_arg20)) (ix1 (0 : Fin 1)) :=
  (blk22 m c t _).trans ((congrFun (V_main_v18 m c) _).trans (shapeCast_a_1a_apply (m ((c : Thread nD τ).loc main_arg20)) _ 0 0))

/-- The first table of point `t`'s block is table `128 t` of the state. -/
def brow (t : Fin cfg0.N) (p : Fin 128) : Fin 4096 :=
  ⟨t.val * 128 + p.val, by have := t.isLt; have hN : cfg0.N = 32 := N_0; have := p.isLt; omega⟩

theorem blk0 (c : Dev nD) (t : Fin cfg0.N) (p : Fin 128) (n d : Fin 64) :
    (iblk m c 0 t : FVec Ideal S128x64x64 .f32) (ix3 p n d) = (m ((c : Thread nD τ).loc main_arg0)) (ix3 (brow t p) n d) := by
  have hi := (by decide +kernel : ∀ t : Fin grid0.N, win0_0.index t 0 = t.val ∧ win0_0.index t 1 = 0 ∧ win0_0.index t 2 = 0) t
  unfold iblk
  rw [View.read_apply]
  show V m c main_arg0 _ = _
  rw [V_main_arg0]
  congr 1
  funext a
  apply Fin.ext
  match a with
  | ⟨0, _⟩ => show win0_0.index t 0 * 128 + 1 * p.val = t.val * 128 + p.val; rw [hi.1]; omega
  | ⟨1, _⟩ => show win0_0.index t 1 * 64 + 1 * n.val = n.val; rw [hi.2.1]; omega
  | ⟨2, _⟩ => show win0_0.index t 2 * 64 + 1 * d.val = d.val; rw [hi.2.2]; omega

/-- Row `p` of the block point `t` writes back is row `128 t + p` of the result. -/
theorem emb23 (t : Fin cfg0.N) (p : Fin 128) :
    ((cfg0.win 23).blk t).view.emb (ix2 p (0 : Fin 1) : S128x1.Idx) = (ix2 (brow t p) (0 : Fin 1) : S4096x1.Idx) := by
  have hi := (by decide +kernel : ∀ t : Fin grid0.N, win0_23.index t 0 = t.val ∧ win0_23.index t 1 = 0) t
  funext a
  apply Fin.ext
  match a with
  | ⟨0, _⟩ => show win0_23.index t 0 * 128 + 1 * p.val = t.val * 128 + p.val; rw [hi.1]; omega
  | ⟨1, _⟩ => show win0_23.index t 1 * 1 + 1 * 0 = 0; rw [hi.2]

/-! ## The write-backs, the cover, the array -/

/-- `G` of the argument arrays as launched. -/
abbrev GA (c : Dev nD) : S4096x1.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT POINT `t` WRITES BACK is block `t` of `G`. -/
theorem flushed_eq (c : Dev nD) (t : Fin cfg0.N) :
    (dats m 0 c).flushed 23 t = ((cfg0.win 23).blk t).view.read (Elt Ideal) (GA m c) := by
  rw [Value.flushed23]
  unfold out0_23
  rw [View.canon_unit_zero hz2]
  simp only [View.ld_unit_zero (S := S128x64x64) hz3, View.ld_unit_zero (S := S64x256) hz2, View.ld_unit_zero (S := S1x256) hz2, View.ld_unit_zero (S := S256x128) hz2, View.ld_unit_zero (S := S1x128) hz2, View.ld_unit_zero (S := S128x256) hz2, View.ld_unit_zero (S := S128x128) hz2, View.ld_unit_zero (S := S128x64) hz2, View.ld_unit_zero (S := S1x64) hz2, View.ld_unit_zero (S := S1x1) hz2, View.ld_unit_zero (S := S9x256) hz2, View.ld_unit_zero (S := S128x1) hz2]
  funext y
  obtain ⟨p, u, rfl⟩ : ∃ (p : Fin 128) (u : Fin 1), y = (ix2 p u : S128x1.Idx) := ⟨y 0, y 1, eq_ix2 (n0 := 128) (n1 := 1) y⟩
  obtain rfl : u = 0 := Subsingleton.elim _ _
  refine (kernel_value (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p).trans ?_
  rw [View.read_apply, emb23]
  simp only [par1 m c t, par2 m c t, par3 m c t, par4 m c t, par5 m c t, par6 m c t, par7 m c t, par8 m c t, par9 m c t,
    par10 m c t, par11 m c t, par12 m c t, par13 m c t, par14 m c t, par15 m c t, par16 m c t, par17 m c t, par18 m c t,
    par19 m c t, par20 m c t, par21 m c t, par22 m c t, blk0 m c t]
  rfl

theorem mem_blk (t : Fin cfg0.N) (i : S4096x1.Idx) :
    i ∈ ((cfg0.win 23).blk t).view.set ↔ ∀ a : Fin 2, win0_23.index t a * S128x1.size a ≤ (i a).val
      ∧ (i a).val < win0_23.index t a * S128x1.size a + S128x1.size a := by
  show i ∈ ((View.whole main_v19).slice (win0_23.rect t)).set ↔ _
  rw [View.set_slice_whole, Rect.mem_set_unit]
  exact Iff.rfl

/-- Row `r` of the result is in the block of point `r / 128`. -/
theorem cover (i : S4096x1.Idx) : ∃ t : Fin cfg0.N, (cfg0.win 23).flush t = true ∧ i ∈ ((cfg0.win 23).blk t).view.set := by
  have hN : cfg0.N = 32 := N_0
  have h0 : (i 0).val < 4096 := (i 0).isLt
  have h1 : (i 1).val < 1 := (i 1).isLt
  have ht : (i 0).val / 128 < cfg0.N := by omega
  have hi := (by decide +kernel : ∀ t : Fin grid0.N, win0_23.index t 0 = t.val ∧ win0_23.index t 1 = 0) ⟨(i 0).val / 128, ht⟩
  refine ⟨⟨(i 0).val / 128, ht⟩, flush0_23 _, ?_⟩
  rw [mem_blk]
  intro a
  match a with
  | ⟨0, _⟩ =>
    show win0_23.index ⟨(i 0).val / 128, ht⟩ 0 * 128 ≤ (i 0).val ∧ (i 0).val < win0_23.index ⟨(i 0).val / 128, ht⟩ 0 * 128 + 128
    rw [hi.1]
    show (i 0).val / 128 * 128 ≤ (i 0).val ∧ (i 0).val < (i 0).val / 128 * 128 + 128
    omega
  | ⟨1, _⟩ =>
    show win0_23.index ⟨(i 0).val / 128, ht⟩ 1 * 1 ≤ (i 1).val ∧ (i 1).val < win0_23.index ⟨(i 0).val / 128, ht⟩ 1 * 1 + 1
    rw [hi.2]
    omega

/-- THE RESULT ARRAY after the run is `G` of the argument arrays. -/
theorem final (c : Dev nD) : (dats m 0 c).arrAt 23 cfg0.N = GA m c :=
  (dats m 0 c).arrAt_eq_of_cover 23 (GA m c) (fun t _ => flushed_eq m c t) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v19) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Value.run_blocks m ρ)

end Cert.KernelArr

end
-- ==== Proof.RefRows.lean ====
/-
  THE REFERENCE ON ONE BATCH ELEMENT, read stage by stage at the ideal values.

  The reference works on all 4096 tables flattened to 262144 rows (row `n` of table `b` at flat row `64 b + n`).  Each stage
  of its run is read at an index: a stage that acts row by row at a flat row is the specification's row function of that
  table's row; a stage that pools over a table's rows at table `b` is the specification's sum over its 64 rows.  The host's
  sums start from the zero constant, which is dropped (`0 + s = s`).  Two stages multiply a concatenated row by a whole
  weight (the masked row beside the mean row; the self features beside the pooled row): there the product sum is split into
  the two partial sums by `Net.sum_cat`, which is the one place the two programs' arrangements differ.
-/
import proofs.«141150_j57114475102901_2_alg».proof.Proof.Gen.ReferenceIdeal.Read
import proofs.«141150_j57114475102901_2_alg».proof.Proof.LibBatchRows
import proofs.«141150_j57114475102901_2_alg».proof.Proof.NetSpec
import proofs.«141150_j57114475102901_2_alg».proof.Proof.LibDenseStep

noncomputable section

open scoped BigOperators

namespace Cert.RefNet

open Cert.ReferenceIdeal Cert.ReferenceIdeal.Gen Cert.ReferenceIdeal.Read Idealize.ShloMosaic Idealize.ShloMosaic.ValueIdx
open Cert.DenseRow Cert.RowBias Cert.BatchRows Cert.Net Cert.DenseStep

/-! ## The contraction records -/

theorem hl_A : ∀ (p : Fin 262144) (c : Fin 256) (k : Fin 64),
    dot_S262144x64_S64x256_S262144x256_1_0_0_1_n_n.lhsIdx (ix2 p c) ((contrEquiv1 dot_S262144x64_S64x256_S262144x256_1_0_0_1_n_n 64 rfl rfl).symm k) = ix2 p k := by
  plain_lhs dot_S262144x64_S64x256_S262144x256_1_0_0_1_n_n 64
theorem hr_A : ∀ (p : Fin 262144) (c : Fin 256) (k : Fin 64),
    dot_S262144x64_S64x256_S262144x256_1_0_0_1_n_n.rhsIdx (ix2 p c) ((contrEquiv1 dot_S262144x64_S64x256_S262144x256_1_0_0_1_n_n 64 rfl rfl).symm k) = ix2 k c := by
  plain_rhs dot_S262144x64_S64x256_S262144x256_1_0_0_1_n_n 64

theorem hl_B : ∀ (p : Fin 262144) (c : Fin 128) (k : Fin 256),
    dot_S262144x256_S256x128_S262144x128_1_0_0_1_n_n.lhsIdx (ix2 p c) ((contrEquiv1 dot_S262144x256_S256x128_S262144x128_1_0_0_1_n_n 256 rfl rfl).symm k) = ix2 p k := by
  plain_lhs dot_S262144x256_S256x128_S262144x128_1_0_0_1_n_n 256
theorem hr_B : ∀ (p : Fin 262144) (c : Fin 128) (k : Fin 256),
    dot_S262144x256_S256x128_S262144x128_1_0_0_1_n_n.rhsIdx (ix2 p c) ((contrEquiv1 dot_S262144x256_S256x128_S262144x128_1_0_0_1_n_n 256 rfl rfl).symm k) = ix2 k c := by
  plain_rhs dot_S262144x256_S256x128_S262144x128_1_0_0_1_n_n 256

theorem hl_C : ∀ (p : Fin 262144) (c : Fin 256) (k : Fin 128),
    dot_S262144x128_S128x256_S262144x256_1_0_0_1_n_n.lhsIdx (ix2 p c) ((contrEquiv1 dot_S262144x128_S128x256_S262144x256_1_0_0_1_n_n 128 rfl rfl).symm k) = ix2 p k := by
  plain_lhs dot_S262144x128_S128x256_S262144x256_1_0_0_1_n_n 128
theorem hr_C : ∀ (p : Fin 262144) (c : Fin 256) (k : Fin 128),
    dot_S262144x128_S128x256_S262144x256_1_0_0_1_n_n.rhsIdx (ix2 p c) ((contrEquiv1 dot_S262144x128_S128x256_S262144x256_1_0_0_1_n_n 128 rfl rfl).symm k) = ix2 k c := by
  plain_rhs dot_S262144x128_S128x256_S262144x256_1_0_0_1_n_n 128

theorem hl_E : ∀ (p : Fin 262144) (c : Fin 64) (k : Fin 128),
    dot_S262144x128_S128x64_S262144x64_1_0_0_1_n_n.lhsIdx (ix2 p c) ((contrEquiv1 dot_S262144x128_S128x64_S262144x64_1_0_0_1_n_n 128 rfl rfl).symm k) = ix2 p k := by
  plain_lhs dot_S262144x128_S128x64_S262144x64_1_0_0_1_n_n 128
theorem hr_E : ∀ (p : Fin 262144) (c : Fin 64) (k : Fin 128),
    dot_S262144x128_S128x64_S262144x64_1_0_0_1_n_n.rhsIdx (ix2 p c) ((contrEquiv1 dot_S262144x128_S128x64_S262144x64_1_0_0_1_n_n 128 rfl rfl).symm k) = ix2 k c := by
  plain_rhs dot_S262144x128_S128x64_S262144x64_1_0_0_1_n_n 128

theorem hl_W : ∀ (p : Fin 262144) (c : Fin 1) (k : Fin 64),
    dot_S262144x64_S64x1_S262144x1_1_0_0_1_n_n.lhsIdx (ix2 p c) ((contrEquiv1 dot_S262144x64_S64x1_S262144x1_1_0_0_1_n_n 64 rfl rfl).symm k) = ix2 p k := by
  plain_lhs dot_S262144x64_S64x1_S262144x1_1_0_0_1_n_n 64
theorem hr_W : ∀ (p : Fin 262144) (c : Fin 1) (k : Fin 64),
    dot_S262144x64_S64x1_S262144x1_1_0_0_1_n_n.rhsIdx (ix2 p c) ((contrEquiv1 dot_S262144x64_S64x1_S262144x1_1_0_0_1_n_n 64 rfl rfl).symm k) = ix2 k c := by
  plain_rhs dot_S262144x64_S64x1_S262144x1_1_0_0_1_n_n 64

theorem hl_J : ∀ (p : Fin 4096) (c : Fin 256) (k : Fin 137),
    dot_S4096x137_S137x256_S4096x256_1_0_0_1_n_n.lhsIdx (ix2 p c) ((contrEquiv1 dot_S4096x137_S137x256_S4096x256_1_0_0_1_n_n 137 rfl rfl).symm k) = ix2 p k := by
  plain_lhs dot_S4096x137_S137x256_S4096x256_1_0_0_1_n_n 137
theorem hr_J : ∀ (p : Fin 4096) (c : Fin 256) (k : Fin 137),
    dot_S4096x137_S137x256_S4096x256_1_0_0_1_n_n.rhsIdx (ix2 p c) ((contrEquiv1 dot_S4096x137_S137x256_S4096x256_1_0_0_1_n_n 137 rfl rfl).symm k) = ix2 k c := by
  plain_rhs dot_S4096x137_S137x256_S4096x256_1_0_0_1_n_n 137

theorem hl_H : ∀ (p : Fin 4096) (c : Fin 128) (k : Fin 256),
    dot_S4096x256_S256x128_S4096x128_1_0_0_1_n_n.lhsIdx (ix2 p c) ((contrEquiv1 dot_S4096x256_S256x128_S4096x128_1_0_0_1_n_n 256 rfl rfl).symm k) = ix2 p k := by
  plain_lhs dot_S4096x256_S256x128_S4096x128_1_0_0_1_n_n 256
theorem hr_H : ∀ (p : Fin 4096) (c : Fin 128) (k : Fin 256),
    dot_S4096x256_S256x128_S4096x128_1_0_0_1_n_n.rhsIdx (ix2 p c) ((contrEquiv1 dot_S4096x256_S256x128_S4096x128_1_0_0_1_n_n 256 rfl rfl).symm k) = ix2 k c := by
  plain_rhs dot_S4096x256_S256x128_S4096x128_1_0_0_1_n_n 256

theorem hl_V : ∀ (p : Fin 4096) (c : Fin 1) (k : Fin 128),
    dot_S4096x128_S128x1_S4096x1_1_0_0_1_n_n.lhsIdx (ix2 p c) ((contrEquiv1 dot_S4096x128_S128x1_S4096x1_1_0_0_1_n_n 128 rfl rfl).symm k) = ix2 p k := by
  plain_lhs dot_S4096x128_S128x1_S4096x1_1_0_0_1_n_n 128
theorem hr_V : ∀ (p : Fin 4096) (c : Fin 1) (k : Fin 128),
    dot_S4096x128_S128x1_S4096x1_1_0_0_1_n_n.rhsIdx (ix2 p c) ((contrEquiv1 dot_S4096x128_S128x1_S4096x1_1_0_0_1_n_n 128 rfl rfl).symm k) = ix2 k c := by
  plain_rhs dot_S4096x128_S128x1_S4096x1_1_0_0_1_n_n 128

/-- A weight's entries and a bias's entries as plain functions. -/
abbrev mat {K N : ℕ} (w : (⟨2, ![K, N]⟩ : Shape).Idx → EReal) : Fin K → Fin N → EReal := fun k j => w (ix2 k j)
abbrev vec {N : ℕ} (v : (⟨1, ![N]⟩ : Shape).Idx → EReal) : Fin N → EReal := fun j => v (ix1 j)

/-- Flat row `64 b + n`. -/
abbrev hrw (b : Fin 4096) (n : Fin 64) : Fin 262144 := row (A := 4096) (B := 64) (R := 262144) (by norm_num) b n

section
variable (x0 : FVec Ideal S4096x64x64 .f32) (x1 : FVec Ideal S64x256 .f32) (x2 : FVec Ideal S256 .f32)
  (x3 : FVec Ideal S256x128 .f32) (x4 : FVec Ideal S128 .f32) (x5 : FVec Ideal S128x256 .f32) (x6 : FVec Ideal S256 .f32)
  (x7 : FVec Ideal S256x128 .f32) (x8 : FVec Ideal S128 .f32) (x9 : FVec Ideal S256x128 .f32) (x10 : FVec Ideal S128 .f32)
  (x11 : FVec Ideal S128x64 .f32) (x12 : FVec Ideal S64 .f32) (x13 : FVec Ideal S64x1 .f32) (x14 : FVec Ideal S1 .f32)
  (x15 : FVec Ideal S137x256 .f32) (x16 : FVec Ideal S256 .f32) (x17 : FVec Ideal S256x128 .f32) (x18 : FVec Ideal S128 .f32)
  (x19 : FVec Ideal S128x1 .f32) (x20 : FVec Ideal S1 .f32) (b : Fin 4096)

theorem r6 (n : Fin 64) (d : Fin 64) : val_main_v6 (F := Ideal) x0 (ix2 (hrw b n) d) = x0 (ix3 b n d) :=
  cast_abc_rc (C := 64) (A := 4096) (B := 64) (R := 262144) (by norm_num) x0 _ b n d

theorem r16 (n : Fin 64) (k : Fin 128) :
    val_main_v16 (F := Ideal) x0 x1 x2 x3 x4 (ix2 (hrw b n) k) = m1 (mat x1) (vec x2) (mat x3) (vec x4) (fun n d => x0 (ix3 b n d)) n k := by
  unfold val_main_v16 val_main_call1_v0 val_main_call1_cst val_main_v15 val_main_v12 val_main_v14 val_main_v13
  refine hlayer_relu_row dot_S262144x256_S256x128_S262144x128_1_0_0_1_n_n rfl rfl hl_B hr_B _ x3 (hrw b n) _ (fun j => ?_) x4 _ _ _ k
  unfold val_main_v11 val_main_call0_v0 val_main_call0_cst val_main_v10 val_main_v7 val_main_v9 val_main_v8
  exact hlayer_relu_row dot_S262144x64_S64x256_S262144x256_1_0_0_1_n_n rfl rfl hl_A hr_A _ x1 (hrw b n) _ (fun d => r6 x0 b n d) x2 _ _ _ j

theorem r20 (n : Fin 64) (j : Fin 256) :
    val_main_v20 (F := Ideal) x0 x1 x2 x3 x4 x5 x6 (ix2 (hrw b n) j) = layer (m1 (mat x1) (vec x2) (mat x3) (vec x4) (fun n d => x0 (ix3 b n d)) n) (mat x5) (vec x6) j := by
  unfold val_main_v20 val_main_v17 val_main_v19 val_main_v18
  exact hlayer_row dot_S262144x128_S128x256_S262144x256_1_0_0_1_n_n rfl rfl hl_C hr_C _ x5 (hrw b n) _ (fun k => r16 x0 x1 x2 x3 x4 b n k) x6 _ _ j

theorem r25 (n : Fin 64) (k : Fin 128) :
    val_main_v25 (F := Ideal) x0 x1 x2 x3 x4 x5 x6 x7 x8 (ix2 (hrw b n) k) = m2 (mat x1) (vec x2) (mat x3) (vec x4) (mat x5) (vec x6) (mat x7) (vec x8) (fun n d => x0 (ix3 b n d)) n k := by
  unfold val_main_v25 val_main_v22 val_main_v24 val_main_v23
  refine hlayer_row dot_S262144x256_S256x128_S262144x128_1_0_0_1_n_n rfl rfl hl_B hr_B _ x7 (hrw b n) _ (fun j => ?_) x8 _ _ k
  unfold val_main_v21 val_main_call2_v0 val_main_call2_cst
  exact (hrelu _ _ _).trans (congrArg (fun y => max y zf) (r20 x0 x1 x2 x3 x4 x5 x6 b n j))

theorem r27 (n : Fin 64) (u : Fin 1) : val_main_v27 (F := Ideal) x0 (ix2 (hrw b n) u) = vis (fun n d => x0 (ix3 b n d)) n := by
  unfold val_main_v27 val_main_v26
  refine congrArg ind ?_
  refine (cast_ab_r1 (A := 4096) (B := 64) (R := 262144) (by norm_num) (val_main_v5 (F := Ideal) x0) _ b n u).trans ?_
  unfold val_main_v5 val_main_v3 val_main_v2 val_main_v4 val_main_cst
  exact congrArg₂ (Ideal.cmp .ogt) (column (A := 4096) (B := 64) (C := 64) 61 (by norm_num) x0 _ _ b n) (hconst _ _ _)

theorem r29 (n : Fin 64) (k : Fin 128) :
    val_main_v29 (F := Ideal) x0 x1 x2 x3 x4 (ix2 (hrw b n) k) = m1v (mat x1) (vec x2) (mat x3) (vec x4) (fun n d => x0 (ix3 b n d)) n k := by
  unfold val_main_v29 val_main_v28
  exact congrArg₂ (· * ·) (r16 x0 x1 x2 x3 x4 b n k) ((hbcast_col _ _ (hrw b n) k).trans (r27 x0 b n 0))

theorem r31 (n : Fin 64) (k : Fin 128) :
    val_main_v31 (F := Ideal) x0 x1 x2 x3 x4 x5 x6 x7 x8 (ix2 (hrw b n) k) = m2v (mat x1) (vec x2) (mat x3) (vec x4) (mat x5) (vec x6) (mat x7) (vec x8) (fun n d => x0 (ix3 b n d)) n k := by
  unfold val_main_v31 val_main_v30
  exact congrArg₂ (· * ·) (r25 x0 x1 x2 x3 x4 x5 x6 x7 x8 b n k) ((hbcast_col _ _ (hrw b n) k).trans (r27 x0 b n 0))

theorem r36 (u : Fin 1) (k : Fin 128) :
    val_main_v36 (F := Ideal) x0 x1 x2 x3 x4 (ix3 b u k) = gs (mat x1) (vec x2) (mat x3) (vec x4) (fun n d => x0 (ix3 b n d)) k := by
  unfold val_main_v36 val_main_v34 val_main_v35 val_main_cst_1
  refine congrArg₂ Ideal.div ?_ (hconst _ _ _)
  refine (hbcast_ac_a1c _ _ b u k).trans ?_
  refine (val_main_v33_apply x0 x1 x2 x3 x4 (ix2 b k)).trans ?_
  have z : (val_main_cst_0 (F := Ideal)) (Shape.Idx.first h_S_) = 0 := Ideal.ofBits_zero_f32
  rw [z, zero_add]
  refine Finset.sum_congr rfl fun n _ => ?_
  rw [show idx_main_v33 (ix2 b k) n = ix3 b n k from
    funext fun a => Fin.ext (by match a with | ⟨0, _⟩ => rfl | ⟨1, _⟩ => rfl | ⟨2, _⟩ => rfl)]
  unfold val_main_v32
  exact (cast_rc_abc (C := 128) (A := 4096) (B := 64) (R := 262144) (by norm_num) _ _ b n k).trans (r29 x0 x1 x2 x3 x4 b n k)

theorem r38 (n : Fin 64) (k : Fin 128) :
    val_main_v38 (F := Ideal) x0 x1 x2 x3 x4 (ix2 (hrw b n) k) = gs (mat x1) (vec x2) (mat x3) (vec x4) (fun n d => x0 (ix3 b n d)) k := by
  unfold val_main_v38 val_main_v37
  exact (cast_abc_rc (C := 128) (A := 4096) (B := 64) (R := 262144) (by norm_num) _ _ b n k).trans
    ((hbcast_a1c_abc _ _ b n k).trans (r36 x0 x1 x2 x3 x4 b 0 k))

theorem r39 (n : Fin 64) (k' : Fin 256) :
    val_main_v39 (F := Ideal) x0 x1 x2 x3 x4 (ix2 (hrw b n) k')
      = cat (by norm_num : 256 = 128 + 128) (m1v (mat x1) (vec x2) (mat x3) (vec x4) (fun n d => x0 (ix3 b n d)) n) (gs (mat x1) (vec x2) (mat x3) (vec x4) (fun n d => x0 (ix3 b n d))) k' := by
  unfold val_main_v39
  refine (concat_cols_apply (R := 262144) (A := 128) (B := 128) (C := 256) (by norm_num) _ _ _ (hrw b n) k').trans ?_
  exact congrArg₂ (fun u v => cat (by norm_num : 256 = 128 + 128) u v k')
    (funext fun a => r29 x0 x1 x2 x3 x4 b n a) (funext fun a => r38 x0 x1 x2 x3 x4 b n a)

theorem r44 (n : Fin 64) (c : Fin 128) :
    val_main_v44 (F := Ideal) x0 x1 x2 x3 x4 x9 x10 (ix2 (hrw b n) c) = a1 (mat x1) (vec x2) (mat x3) (vec x4) (fun k c => x9 (ix2 (⟨k.val, by have := k.isLt; omega⟩ : Fin 256) c)) (fun k c => x9 (ix2 (⟨128 + k.val, by have := k.isLt; omega⟩ : Fin 256) c)) (vec x10) (fun n d => x0 (ix3 b n d)) n c := by
  unfold val_main_v44 val_main_call3_v0 val_main_call3_cst
  refine (hrelu _ _ _).trans (congrArg (fun y => max y zf) ?_)
  unfold val_main_v43 val_main_v40 val_main_v42 val_main_v41
  refine (hlayer_row dot_S262144x256_S256x128_S262144x128_1_0_0_1_n_n rfl rfl hl_B hr_B _ x9 (hrw b n) _ (fun k' => r39 x0 x1 x2 x3 x4 b n k') x10 _ _ c).trans ?_
  exact congrArg (· + x10 (ix1 c)) (sum_cat (by norm_num : 256 = 128 + 128) _ _ (fun k => x9 (ix2 k c)))

theorem r49 (n : Fin 64) (e : Fin 64) :
    val_main_v49 (F := Ideal) x0 x1 x2 x3 x4 x9 x10 x11 x12 (ix2 (hrw b n) e) = a2 (mat x1) (vec x2) (mat x3) (vec x4) (fun k c => x9 (ix2 (⟨k.val, by have := k.isLt; omega⟩ : Fin 256) c)) (fun k c => x9 (ix2 (⟨128 + k.val, by have := k.isLt; omega⟩ : Fin 256) c)) (vec x10) (mat x11) (vec x12) (fun n d => x0 (ix3 b n d)) n e := by
  unfold val_main_v49 val_main_call4_v0 val_main_call4_cst val_main_v48 val_main_v45 val_main_v47 val_main_v46
  exact hlayer_relu_row dot_S262144x128_S128x64_S262144x64_1_0_0_1_n_n rfl rfl hl_E hr_E _ x11 (hrw b n) _ (fun c => r44 x0 x1 x2 x3 x4 x9 x10 b n c) x12 _ _ _ e

theorem r54 (n : Fin 64) :
    val_main_v54 (F := Ideal) x0 x1 x2 x3 x4 x9 x10 x11 x12 x13 x14 (ix2 b n) = score (mat x1) (vec x2) (mat x3) (vec x4) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun n d => x0 (ix3 b n d)) n := by
  unfold val_main_v54
  refine (cast_r1_ab (A := 4096) (B := 64) (R := 262144) (by norm_num) _ _ b n).trans ?_
  unfold val_main_v53 val_main_v50 val_main_v52 val_main_v51
  exact hlayer_row dot_S262144x64_S64x1_S262144x1_1_0_0_1_n_n rfl rfl hl_W hr_W _ x13 (hrw b n) _ (fun e => r49 x0 x1 x2 x3 x4 x9 x10 x11 x12 b n e) x14 _ _ 0

theorem r59 (n : Fin 64) :
    val_main_v59 (F := Ideal) x0 x1 x2 x3 x4 x9 x10 x11 x12 x13 x14 (ix2 b n) = sexp (mat x1) (vec x2) (mat x3) (vec x4) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun n d => x0 (ix3 b n d)) n := by
  unfold val_main_v59 val_main_v55 val_main_v58 val_main_v57 val_main_v56 val_main_cst_2
  exact congrArg₂ (· * ·) (congrArg Ideal.exp (r54 x0 x1 x2 x3 x4 x9 x10 x11 x12 x13 x14 b n))
    (congrArg ind (congrArg₂ (Ideal.cmp .one) (r54 x0 x1 x2 x3 x4 x9 x10 x11 x12 x13 x14 b n) (hconst _ _ _)))

theorem r63 (n : Fin 64) :
    val_main_v63 (F := Ideal) x0 x1 x2 x3 x4 x9 x10 x11 x12 x13 x14 (ix2 b n) = wgt (mat x1) (vec x2) (mat x3) (vec x4) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun n d => x0 (ix3 b n d)) n := by
  unfold val_main_v63 val_main_v62 val_main_v61
  refine congrArg₂ Ideal.div (r59 x0 x1 x2 x3 x4 x9 x10 x11 x12 x13 x14 b n) ?_
  refine (hbcast_col _ _ b n).trans ((hbcast_vec_col _ _ b 0).trans ?_)
  refine (val_main_v60_apply x0 x1 x2 x3 x4 x9 x10 x11 x12 x13 x14 (ix1 b)).trans ?_
  have z : (val_main_cst_3 (F := Ideal)) (Shape.Idx.first h_S_) = 0 := Ideal.ofBits_zero_f32
  rw [z, zero_add]
  refine Finset.sum_congr rfl fun n' _ => ?_
  rw [show idx_main_v60 (ix1 b) n' = ix2 b n' from
    funext fun a => Fin.ext (by match a with | ⟨0, _⟩ => rfl | ⟨1, _⟩ => rfl)]
  exact r59 x0 x1 x2 x3 x4 x9 x10 x11 x12 x13 x14 b n'

theorem r68 (k : Fin 128) :
    val_main_v68 (F := Ideal) x0 x1 x2 x3 x4 x5 x6 x7 x8 x9 x10 x11 x12 x13 x14 (ix2 b k) = weighted (mat x1) (vec x2) (mat x3) (vec x4) (mat x5) (vec x6) (mat x7) (vec x8) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun n d => x0 (ix3 b n d)) k := by
  refine (val_main_v68_apply x0 x1 x2 x3 x4 x5 x6 x7 x8 x9 x10 x11 x12 x13 x14 (ix2 b k)).trans ?_
  have z : (val_main_cst_4 (F := Ideal)) (Shape.Idx.first h_S_) = 0 := Ideal.ofBits_zero_f32
  rw [z, zero_add]
  refine Finset.sum_congr rfl fun n _ => ?_
  rw [show idx_main_v68 (ix2 b k) n = ix3 b n k from
    funext fun a => Fin.ext (by match a with | ⟨0, _⟩ => rfl | ⟨1, _⟩ => rfl | ⟨2, _⟩ => rfl)]
  unfold val_main_v67 val_main_v66 val_main_v65 val_main_v64
  exact congrArg₂ (· * ·)
    ((hbcast_ab1_abc _ _ b n k).trans ((hbcast_ab_ab1 _ _ b n 0).trans (r63 x0 x1 x2 x3 x4 x9 x10 x11 x12 x13 x14 b n)))
    ((cast_rc_abc (C := 128) (A := 4096) (B := 64) (R := 262144) (by norm_num) _ _ b n k).trans (r31 x0 x1 x2 x3 x4 x5 x6 x7 x8 b n k))

theorem r1 (i : Fin 9) :
    val_main_v1 (F := Ideal) x0 (ix2 b i) = x0 (ix3 b (0 : Fin 64) ⟨i.val, by have := i.isLt; omega⟩) := by
  unfold val_main_v1 val_main_v0
  exact head_row (A := 4096) (B := 64) (C := 64) (M := 9) (by norm_num) (by norm_num) x0 _ _ b i

theorem r69 (k' : Fin 137) :
    val_main_v69 (F := Ideal) x0 x1 x2 x3 x4 x5 x6 x7 x8 x9 x10 x11 x12 x13 x14 (ix2 b k')
      = cat (by norm_num : 137 = 9 + 128) (fun i : Fin 9 => x0 (ix3 b (0 : Fin 64) ⟨i.val, by have := i.isLt; omega⟩))
          (weighted (mat x1) (vec x2) (mat x3) (vec x4) (mat x5) (vec x6) (mat x7) (vec x8) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun n d => x0 (ix3 b n d))) k' := by
  unfold val_main_v69
  refine (concat_cols_apply (R := 4096) (A := 9) (B := 128) (C := 137) (by norm_num) _ _ _ b k').trans ?_
  exact congrArg₂ (fun u v => cat (by norm_num : 137 = 9 + 128) u v k')
    (funext fun a => r1 x0 b a) (funext fun a => r68 x0 x1 x2 x3 x4 x5 x6 x7 x8 x9 x10 x11 x12 x13 x14 b a)

theorem r74 (j : Fin 256) :
    val_main_v74 (F := Ideal) x0 x1 x2 x3 x4 x5 x6 x7 x8 x9 x10 x11 x12 x13 x14 x15 x16 (ix2 b j) = h3a (mat x1) (vec x2) (mat x3) (vec x4) (mat x5) (vec x6) (mat x7) (vec x8) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun i' j => x15 (ix2 (⟨i'.val, by have := i'.isLt; omega⟩ : Fin 137) j)) (fun k j => x15 (ix2 (⟨9 + k.val, by have := k.isLt; omega⟩ : Fin 137) j)) (vec x16) (fun n d => x0 (ix3 b n d)) j := by
  unfold val_main_v74 val_main_call5_v0 val_main_call5_cst
  refine (hrelu _ _ _).trans (congrArg (fun y => max y zf) ?_)
  unfold val_main_v73 val_main_v70 val_main_v72 val_main_v71
  refine (hlayer_row dot_S4096x137_S137x256_S4096x256_1_0_0_1_n_n rfl rfl hl_J hr_J _ x15 b _ (fun k' => r69 x0 x1 x2 x3 x4 x5 x6 x7 x8 x9 x10 x11 x12 x13 x14 b k') x16 _ _ j).trans ?_
  exact congrArg (· + x16 (ix1 j)) (sum_cat (by norm_num : 137 = 9 + 128) _ _ (fun k => x15 (ix2 k j)))

theorem r79 (k : Fin 128) :
    val_main_v79 (F := Ideal) x0 x1 x2 x3 x4 x5 x6 x7 x8 x9 x10 x11 x12 x13 x14 x15 x16 x17 x18 (ix2 b k) = h3b (mat x1) (vec x2) (mat x3) (vec x4) (mat x5) (vec x6) (mat x7) (vec x8) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun i' j => x15 (ix2 (⟨i'.val, by have := i'.isLt; omega⟩ : Fin 137) j)) (fun k j => x15 (ix2 (⟨9 + k.val, by have := k.isLt; omega⟩ : Fin 137) j)) (vec x16) (mat x17) (vec x18) (fun n d => x0 (ix3 b n d)) k := by
  unfold val_main_v79 val_main_call6_v0 val_main_call6_cst val_main_v78 val_main_v75 val_main_v77 val_main_v76
  exact hlayer_relu_row dot_S4096x256_S256x128_S4096x128_1_0_0_1_n_n rfl rfl hl_H hr_H _ x17 b _ (fun j => r74 x0 x1 x2 x3 x4 x5 x6 x7 x8 x9 x10 x11 x12 x13 x14 x15 x16 b j) x18 _ _ _ k

/-- The reference's result for table `b` is the specification's value of that table. -/
theorem r83 :
    val_main_v83 (F := Ideal) x0 x1 x2 x3 x4 x5 x6 x7 x8 x9 x10 x11 x12 x13 x14 x15 x16 x17 x18 x19 x20 (ix2 b (0 : Fin 1)) = value (mat x1) (vec x2) (mat x3) (vec x4) (mat x5) (vec x6) (mat x7) (vec x8) (fun k c => x9 (ix2 (⟨k.val, by have := k.isLt; omega⟩ : Fin 256) c)) (fun k c => x9 (ix2 (⟨128 + k.val, by have := k.isLt; omega⟩ : Fin 256) c)) (vec x10) (mat x11) (vec x12) (fun e => x13 (ix2 e (0 : Fin 1))) (x14 (ix1 (0 : Fin 1))) (fun i' j => x15 (ix2 (⟨i'.val, by have := i'.isLt; omega⟩ : Fin 137) j)) (fun k j => x15 (ix2 (⟨9 + k.val, by have := k.isLt; omega⟩ : Fin 137) j)) (vec x16) (mat x17) (vec x18) (fun k => x19 (ix2 k (0 : Fin 1))) (x20 (ix1 (0 : Fin 1))) (fun n d => x0 (ix3 b n d)) := by
  unfold val_main_v83 val_main_v80 val_main_v82 val_main_v81
  exact hlayer_row dot_S4096x128_S128x1_S4096x1_1_0_0_1_n_n rfl rfl hl_V hr_V _ x19 b _ (fun k => r79 x0 x1 x2 x3 x4 x5 x6 x7 x8 x9 x10 x11 x12 x13 x14 x15 x16 x17 x18 b k) x20 _ _ 0

end

/-- THE REFERENCE'S RESULT ARRAY is the specification's `G` of its arguments. -/
theorem ref_is_G (x0 : FVec Ideal S4096x64x64 .f32) (x1 : FVec Ideal S64x256 .f32) (x2 : FVec Ideal S256 .f32)
    (x3 : FVec Ideal S256x128 .f32) (x4 : FVec Ideal S128 .f32) (x5 : FVec Ideal S128x256 .f32) (x6 : FVec Ideal S256 .f32)
    (x7 : FVec Ideal S256x128 .f32) (x8 : FVec Ideal S128 .f32) (x9 : FVec Ideal S256x128 .f32) (x10 : FVec Ideal S128 .f32)
    (x11 : FVec Ideal S128x64 .f32) (x12 : FVec Ideal S64 .f32) (x13 : FVec Ideal S64x1 .f32) (x14 : FVec Ideal S1 .f32)
    (x15 : FVec Ideal S137x256 .f32) (x16 : FVec Ideal S256 .f32) (x17 : FVec Ideal S256x128 .f32) (x18 : FVec Ideal S128 .f32)
    (x19 : FVec Ideal S128x1 .f32) (x20 : FVec Ideal S1 .f32) :
    val_main_v83 (F := Ideal) x0 x1 x2 x3 x4 x5 x6 x7 x8 x9 x10 x11 x12 x13 x14 x15 x16 x17 x18 x19 x20 = G x0 x1 x2 x3 x4 x5 x6 x7 x8 x9 x10 x11 x12 x13 x14 x15 x16 x17 x18 x19 x20 := by
  funext i
  obtain ⟨b, u, rfl⟩ : ∃ (b : Fin 4096) (u : Fin 1), i = ix2 b u := ⟨i 0, i 1, eq_ix2 i⟩
  obtain rfl : u = 0 := Subsingleton.elim _ _
  exact r83 x0 x1 x2 x3 x4 x5 x6 x7 x8 x9 x10 x11 x12 x13 x14 x15 x16 x17 x18 x19 x20 b

end Cert.RefNet

end
-- ==== Proof.lean ====
/-
  A value network over batches of neighbour tables: the fused kernel against the plain reference, at the ideal values.

  THE MATHEMATICS.  Both programs send each of 4096 batch elements — a table of 64 neighbours by 64 features — to one
  number, independently of the other elements: `Net.value` (Proof/NetSpec.lean), two stacked perceptrons per row, a
  visibility mask, an attention over the rows whose scores come from a perceptron on each masked row beside the rows' mean,
  an exponential weighting normalised over the rows, and a last perceptron on nine self features beside the pooled row.
  The result array is `Net.G` of the 21 argument arrays, entry `(b, 0)` the value of element `b`.

  The kernel works on blocks of 128 elements with reduced-precision products; the reference on all rows at once.  At the
  ideal values the changes of float format are the identity, a matrix product into a zero accumulator and a host
  `dot_general` are the same sum, and a lane sum and a host sum (from zero) are the same sum.  What remains different is
  the arrangement of two products: where the reference multiplies a concatenated row by a whole weight, the kernel adds the
  two partial products (against the weight's upper and lower rows).  These agree because a sum over a concatenated index
  set splits into the two partial sums (`Net.sum_cat`), which needs only that addition of extended reals is commutative
  and associative: the precondition (finite inputs) is not used.

  Proof/KernelRows.lean reads the kernel's body on one block row by row; Proof/KernelArray.lean reads each window's block
  as entries of the arguments and concludes that the kernel's result array is `G`; Proof/RefRows.lean reads the reference's
  run stage by stage and concludes the same of its result.  The frames are the generated ones (the reference's is its
  generated run with the result dropped); no rewrite was applied to the kernel, so `preserves` is trivial.
-/
import proofs.«141150_j57114475102901_2_alg».proof.Defs
import proofs.«141150_j57114475102901_2_alg».proof.Proof.Gen.Kernel
import proofs.«141150_j57114475102901_2_alg».proof.Proof.Gen.Kernel.Skeleton
import proofs.«141150_j57114475102901_2_alg».proof.Proof.Gen.Kernel.Launch
import proofs.«141150_j57114475102901_2_alg».proof.Proof.Gen.Kernel.Points
import proofs.«141150_j57114475102901_2_alg».proof.Proof.Gen.Kernel.Frame
import proofs.«141150_j57114475102901_2_alg».proof.Proof.Gen.KernelIdeal
import proofs.«141150_j57114475102901_2_alg».proof.Proof.Gen.KernelIdeal.Skeleton
import proofs.«141150_j57114475102901_2_alg».proof.Proof.Gen.KernelIdeal.Launch
import proofs.«141150_j57114475102901_2_alg».proof.Proof.Gen.KernelIdeal.Points
import proofs.«141150_j57114475102901_2_alg».proof.Proof.Gen.KernelIdeal.Frame
import proofs.«141150_j57114475102901_2_alg».proof.Proof.Gen.ReferenceIdeal
import proofs.«141150_j57114475102901_2_alg».proof.Proof.Gen.KernelIdeal.Value
import proofs.«141150_j57114475102901_2_alg».proof.Proof.Gen.ReferenceIdeal.Run
import proofs.«141150_j57114475102901_2_alg».proof.Proof.Gen.ReferenceIdeal.Read
import proofs.«141150_j57114475102901_2_alg».proof.Proof.Gen.Pre_finite_inputs
import proofs.«141150_j57114475102901_2_alg».proof.Proof.KernelArray
import proofs.«141150_j57114475102901_2_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays end at `Net.G` of argument arrays that agree. -/
theorem algebraic : Cert.algebraic_KernelIdeal_ReferenceIdeal := by
  intro m ρ m' ρ' _ hagree
  refine ⟨fun c => Cert.KernelArr.GA m c, Cert.KernelArr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq, Cert.RefNet.ref_is_G]
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
